-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v72)) (v1 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_v73) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S20000x128 : Shape := ⟨2, ![20000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S20000x128 : S_.BroadcastsInDim S20000x128 (![] : Fin 0 → Fin S20000x128.rank)
  reducesTo_S20000x128_S_d0_1 : S20000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : FVec F S20000x128 .f32) (main_arg2 : IVec S2x600000 32) (main_arg3 : IVec S2x600000 32) (main_arg4 : FVec F S128x128 .f32) (main_arg5 : FVec F S128 .f32) (main_arg6 : FVec F S128x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S20000x128 .f32 := Host.absf main_arg1
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S100000x128 : Shape := ⟨2, ![100000, 128]⟩
abbrev S20000x128 : Shape := ⟨2, ![20000, 128]⟩
abbrev S2x600000 : Shape := ⟨2, ![2, 600000]⟩
abbrev S128x128 : Shape := ⟨2, ![128, 128]⟩
abbrev S128 : Shape := ⟨1, ![128]⟩
abbrev S1x128 : Shape := ⟨2, ![1, 128]⟩
abbrev S2000x128 : Shape := ⟨2, ![2000, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S20000 : Shape := ⟨1, ![20000]⟩
abbrev S20000x1 : Shape := ⟨2, ![20000, 1]⟩
abbrev S4000x128 : Shape := ⟨2, ![4000, 128]⟩
abbrev S4000x1 : Shape := ⟨2, ![4000, 1]⟩

abbrev nBuf : Space → Nat
  | .hbm => 103
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S20000x128, .f32⟩
  | .hbm, ⟨2, _⟩ => ⟨S2x600000, .i32⟩
  | .hbm, ⟨3, _⟩ => ⟨S2x600000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x128, .f32⟩
  | .hbm, ⟨9, _⟩ => ⟨S100000x128, .f32⟩
  | .hbm, ⟨10, _⟩ => ⟨S1x128, .f32⟩
  | .hbm, ⟨11, _⟩ => ⟨S20000x128, .f32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S600000x128, .f32⟩
  | .hbm, ⟨25, _⟩ => ⟨S_, .f32⟩
  | .hbm, ⟨26, _⟩ => ⟨S100000x128, .f32⟩
  | .hbm, ⟨27, _⟩ => ⟨S600000x1, .i32⟩
  | .hbm, ⟨28, _⟩ => ⟨S100000x128, .f32⟩
  | .hbm, ⟨29, _⟩ => ⟨S_, .i32⟩
  | .hbm, ⟨30, _⟩ => ⟨S600000, .i32⟩
  | .hbm, ⟨31, _⟩ => ⟨S_, .i32⟩
  | .hbm, ⟨32, _⟩ => ⟨S100000, .i32⟩
  | .hbm, ⟨33, _⟩ => ⟨S600000x1, .i32⟩
  | .hbm, ⟨34, _⟩ => ⟨S100000, .i32⟩
  | .hbm, ⟨35, _⟩ => ⟨S100000, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S_, .f32⟩
  | .hbm, ⟨40, _⟩ => ⟨S100000, .f32⟩
  | .hbm, ⟨41, _⟩ => ⟨S100000, .f32⟩
  | .hbm, ⟨42, _⟩ => ⟨S100000x1, .f32⟩
  | .hbm, ⟨43, _⟩ => ⟨S1x600000, .i32⟩
  | .hbm, ⟨44, _⟩ => ⟨S600000, .i32⟩
  | .hbm, ⟨45, _⟩ => ⟨S1x600000, .i32⟩
  | .hbm, ⟨46, _⟩ => ⟨S600000, .i32⟩
  | .hbm, ⟨47, _⟩ => ⟨S_, .i32⟩
  | .hbm, ⟨48, _⟩ => ⟨S600000, .i32⟩
  | .hbm, ⟨49, _⟩ => ⟨S600000, .i1⟩
  | .hbm, ⟨50, _⟩ => ⟨S_, .i32⟩
  | .hbm, ⟨51, _⟩ => ⟨S600000, .i32⟩
  | .hbm, ⟨52, _⟩ => ⟨S600000, .i32⟩
  | .hbm, ⟨53, _⟩ => ⟨S600000, .i32⟩
  | .hbm, ⟨54, _⟩ => ⟨S600000x1, .i32⟩
  | .hbm, ⟨55, _⟩ => ⟨S600000x128, .f32⟩
  | .hbm, ⟨56, _⟩ => ⟨S_, .f32⟩
  | .hbm, ⟨57, _⟩ => ⟨S20000x128, .f32⟩
  | .hbm, ⟨58, _⟩ => ⟨S600000x1, .i32⟩
  | .hbm, ⟨59, _⟩ => ⟨S20000x128, .f32⟩
  | .hbm, ⟨60, _⟩ => ⟨S_, .i32⟩
  | .hbm, ⟨61, _⟩ => ⟨S600000, .i32⟩
  | .hbm, ⟨62, _⟩ => ⟨S_, .i32⟩
  | .hbm, ⟨63, _⟩ => ⟨S20000, .i32⟩
  | .hbm, ⟨64, _⟩ => ⟨S600000x1, .i32⟩
  | .hbm, ⟨65, _⟩ => ⟨S20000, .i32⟩
  | .hbm, ⟨66, _⟩ => ⟨S20000, .f32⟩
  | .hbm, ⟨67, _⟩ => ⟨S_, .f32⟩
  | .hbm, ⟨68, _⟩ => ⟨S20000, .f32⟩
  | .hbm, ⟨69, _⟩ => ⟨S20000, .f32⟩
  | .hbm, ⟨70, _⟩ => ⟨S_, .f32⟩
  | .hbm, ⟨71, _⟩ => ⟨S20000, .f32⟩
  | .hbm, ⟨72, _⟩ => ⟨S20000, .f32⟩
  | .hbm, ⟨73, _⟩ => ⟨S20000x1, .f32⟩
  | .hbm, ⟨74, _⟩ => ⟨S_, .i32⟩
  | .hbm, ⟨75, _⟩ => ⟨S600000, .i32⟩
  | .hbm, ⟨76, _⟩ => ⟨S600000, .i1⟩
  | .hbm, ⟨77, _⟩ => ⟨S_, .i32⟩
  | .hbm, ⟨78, _⟩ => ⟨S600000, .i32⟩
  | .hbm, ⟨79, _⟩ => ⟨S600000, .i32⟩
  | .hbm, ⟨80, _⟩ => ⟨S600000, .i32⟩
  | .hbm, ⟨81, _⟩ => ⟨S600000x1, .i32⟩
  | .hbm, ⟨82, _⟩ => ⟨S600000x128, .f32⟩
  | .hbm, ⟨83, _⟩ => ⟨S_, .f32⟩
  | .hbm, ⟨84, _⟩ => ⟨S100000x128, .f32⟩
  | .hbm, ⟨85, _⟩ => ⟨S600000x1, .i32⟩
  | .hbm, ⟨86, _⟩ => ⟨S100000x128, .f32⟩
  | .hbm, ⟨87, _⟩ => ⟨S_, .i32⟩
  | .hbm, ⟨88, _⟩ => ⟨S600000, .i32⟩
  | .hbm, ⟨89, _⟩ => ⟨S_, .i32⟩
  | .hbm, ⟨90, _⟩ => ⟨S100000, .i32⟩
  | .hbm, ⟨91, _⟩ => ⟨S600000x1, .i32⟩
  | .hbm, ⟨92, _⟩ => ⟨S100000, .i32⟩
  | .hbm, ⟨93, _⟩ => ⟨S100000, .f32⟩
  | .hbm, ⟨94, _⟩ => ⟨S_, .f32⟩
  | .hbm, ⟨95, _⟩ => ⟨S100000, .f32⟩
  | .hbm, ⟨96, _⟩ => ⟨S100000, .f32⟩
  | .hbm, ⟨97, _⟩ => ⟨S_, .f32⟩
  | .hbm, ⟨98, _⟩ => ⟨S100000, .f32⟩
  | .hbm, ⟨99, _⟩ => ⟨S100000, .f32⟩
  | .hbm, ⟨100, _⟩ => ⟨S100000x1, .f32⟩
  | .hbm, ⟨101, _⟩ => ⟨S100000x128, .f32⟩
  | .hbm, ⟨102, _⟩ => ⟨S20000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S128x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x1, .f32⟩
  | .local _ .vmem, ⟨17, _⟩ => ⟨S4000x1, .f32⟩
  | .local _ .vmem, ⟨18, _⟩ => ⟨S4000x128, .f32⟩
  | .local _ .vmem, ⟨19, _⟩ => ⟨S4000x128, .f32⟩
  | .local _ .vmem, ⟨20, _⟩ => ⟨S4000x1, .f32⟩
  | .local _ .vmem, ⟨21, _⟩ => ⟨S4000x1, .f32⟩
  | .local _ .vmem, ⟨22, _⟩ => ⟨S4000x128, .f32⟩
  | .local _ .vmem, ⟨23, _⟩ => ⟨S4000x128, .f32⟩
  | .local _ .vmem, ⟨24, _⟩ => ⟨S4000x128, .f32⟩
  | .local _ .vmem, ⟨25, _⟩ => ⟨S4000x128, .f32⟩
  | .local _ .vmem, ⟨26, _⟩ => ⟨S4000x128, .f32⟩
  | .local _ .vmem, ⟨27, _⟩ => ⟨S4000x128, .f32⟩
  | .local _ .vmem, ⟨28, _⟩ => ⟨S4000x1, .f32⟩
  | .local _ .vmem, ⟨29, _⟩ => ⟨S4000x1, .f32⟩
  | .local _ .vmem, ⟨30, _⟩ => ⟨S4000x128, .f32⟩
  | .local _ .vmem, ⟨31, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_1 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_8 : Ref sig .tc := ⟨.hbm, 60, rfl⟩
abbrev main_v42 : Ref sig .tc := ⟨.hbm, 61, rfl⟩
abbrev main_c_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_10 : Ref sig .tc := ⟨.hbm, 67, rfl⟩
abbrev main_v47 : Ref sig .tc := ⟨.hbm, 68, rfl⟩
abbrev main_v48 : Ref sig .tc := ⟨.hbm, 69, rfl⟩
abbrev main_cst_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_12 : Ref sig .tc := ⟨.hbm, 74, rfl⟩
abbrev main_v52 : Ref sig .tc := ⟨.hbm, 75, rfl⟩
abbrev main_v53 : Ref sig .tc := ⟨.hbm, 76, rfl⟩
abbrev main_c_13 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_14 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_15 : Ref sig .tc := ⟨.hbm, 87, rfl⟩
abbrev main_v62 : Ref sig .tc := ⟨.hbm, 88, rfl⟩
abbrev main_c_16 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_17 : Ref sig .tc := ⟨.hbm, 94, rfl⟩
abbrev main_v67 : Ref sig .tc := ⟨.hbm, 95, rfl⟩
abbrev main_v68 : Ref sig .tc := ⟨.hbm, 96, rfl⟩
abbrev main_cst_18 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S4000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S4000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S4000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S20000x128 : S_.BroadcastsInDim S20000x128 (![] : Fin 0 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  dot_S2000x128_S128x128_S2000x128_1_0_0_1_n_n_wf : DotDims.WF S2000x128 S128x128 S2000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  scatter_S20000x128_S600000x1_S600000x128_1_0_0_1_wf : ScatterDims.WF S20000x128 S600000x1 S600000x128 [1] [0] [0] 1
  scatter_S20000_S600000x1_S600000_n_0_0_1_wf : ScatterDims.WF S20000 S600000x1 S600000 [] [0] [0] 1
  gather_S20000x128_S600000x1_S600000x128_1_0_n_n_0_1_1128_wf : GatherDims.WF S20000x128 S600000x1 S600000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S20000x128.size a
  hwx1_0 : ∀ i : grid1.Coords, EltTy.bits .f32 = 32 ∨ (Rect.block (s := S20000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S20000x128.size a
  hwx1_3 : ∀ i : grid1.Coords, EltTy.bits .f32 = 32 ∨ (Rect.block (s := S20000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x128.size a ≤ S100000x128.size a
  hwx2_3 : ∀ i : grid2.Coords, EltTy.bits .f32 = 32 ∨ (Rect.block (s := S100000x128) S4000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x1.size a ≤ S100000x1.size a
  hwx2_4 : ∀ i : grid2.Coords, EltTy.bits .f32 = 32 ∨ (Rect.block (s := S100000x1) S4000x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x128.size a ≤ S100000x128.size a
  hwx2_5 : ∀ i : grid2.Coords, EltTy.bits .f32 = 32 ∨ (Rect.block (s := S100000x128) S4000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S20000x128.size a
  hwx3_0 : ∀ i : grid3.Coords, EltTy.bits .f32 = 32 ∨ (Rect.block (s := S20000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S20000x128.size a
  hwx3_1 : ∀ i : grid3.Coords, EltTy.bits .f32 = 32 ∨ (Rect.block (s := S20000x128) S4000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x1.size a ≤ S20000x1.size a
  hwx3_2 : ∀ i : grid3.Coords, EltTy.bits .f32 = 32 ∨ (Rect.block (s := S20000x1) S4000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x128.size a ≤ S20000x128.size a
  hwx3_3 : ∀ i : grid3.Coords, EltTy.bits .f32 = 32 ∨ (Rect.block (s := S20000x128) S4000x128.size (cc3_transform_3 i) (hinb3_3 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def scatter_S20000x128_S600000x1_S600000x128_1_0_0_1 : ScatterDims S20000x128 S600000x1 S600000x128 where
  updateWindowDims := [1]
  insertedWindowDims := [0]
  scatterDimsToOperandDims := [0]
  indexVectorDim := 1
  wf := scatter_S20000x128_S600000x1_S600000x128_1_0_0_1_wf
def scatter_S20000_S600000x1_S600000_n_0_0_1 : ScatterDims S20000 S600000x1 S600000 where
  updateWindowDims := []
  insertedWindowDims := [0]
  scatterDimsToOperandDims := [0]
  indexVectorDim := 1
  wf := scatter_S20000_S600000x1_S600000_n_0_0_1_wf
def gather_S20000x128_S600000x1_S600000x128_1_0_n_n_0_1_1128 : GatherDims S20000x128 S600000x1 S600000x128 where
  offsetDims := [1]
  collapsedSliceDims := [0]
  operandBatchingDims := []
  startIndicesBatchingDims := []
  startIndexMap := [0]
  indexVectorDim := 1
  sliceSizes := ![1, 128]
  wf := gather_S20000x128_S600000x1_S600000x128_1_0_n_n_0_1_1128_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v1) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v61) S4000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v71) S4000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v72) S4000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v3) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v51) S4000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v73) S4000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S20000x128 : Shape := ⟨2, ![20000, 128]⟩
abbrev S2x600000 : Shape := ⟨2, ![2, 600000]⟩
abbrev S128x128 : Shape := ⟨2, ![128, 128]⟩
abbrev S128 : Shape := ⟨1, ![128]⟩
abbrev S1x128 : Shape := ⟨2, ![1, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S20000 : Shape := ⟨1, ![20000]⟩
abbrev S20000x1 : Shape := ⟨2, ![20000, 1]⟩

abbrev nBuf : Space → Nat
  | .hbm => 108
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S20000x128, .f32⟩
  | .hbm, ⟨2, _⟩ => ⟨S2x600000, .i32⟩
  | .hbm, ⟨3, _⟩ => ⟨S2x600000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S100000x128, .f32⟩
  | .hbm, ⟨9, _⟩ => ⟨S1x128, .f32⟩
  | .hbm, ⟨10, _⟩ => ⟨S100000x128, .f32⟩
  | .hbm, ⟨11, _⟩ => ⟨S100000x128, .f32⟩
  | .hbm, ⟨12, _⟩ => ⟨S20000x128, .f32⟩
  | .hbm, ⟨13, _⟩ => ⟨S1x128, .f32⟩
  | .hbm, ⟨14, _⟩ => ⟨S20000x128, .f32⟩
  | .hbm, ⟨15, _⟩ => ⟨S20000x128, .f32⟩
  | .hbm, ⟨16, _⟩ => ⟨S1x600000, .i32⟩
  | .hbm, ⟨17, _⟩ => ⟨S600000, .i32⟩
  | .hbm, ⟨18, _⟩ => ⟨S1x600000, .i32⟩
  | .hbm, ⟨19, _⟩ => ⟨S600000, .i32⟩
  | .hbm, ⟨20, _⟩ => ⟨S_, .i32⟩
  | .hbm, ⟨21, _⟩ => ⟨S600000, .i32⟩
  | .hbm, ⟨22, _⟩ => ⟨S600000, .i1⟩
  | .hbm, ⟨23, _⟩ => ⟨S_, .i32⟩
  | .hbm, ⟨24, _⟩ => ⟨S600000, .i32⟩
  | .hbm, ⟨25, _⟩ => ⟨S600000, .i32⟩
  | .hbm, ⟨26, _⟩ => ⟨S600000, .i32⟩
  | .hbm, ⟨27, _⟩ => ⟨S600000x1, .i32⟩
  | .hbm, ⟨28, _⟩ => ⟨S600000x128, .f32⟩
  | .hbm, ⟨29, _⟩ => ⟨S_, .f32⟩
  | .hbm, ⟨30, _⟩ => ⟨S100000x128, .f32⟩
  | .hbm, ⟨31, _⟩ => ⟨S600000x1, .i32⟩
  | .hbm, ⟨32, _⟩ => ⟨S100000x128, .f32⟩
  | .hbm, ⟨33, _⟩ => ⟨S_, .f32⟩
  | .hbm, ⟨34, _⟩ => ⟨S600000, .f32⟩
  | .hbm, ⟨35, _⟩ => ⟨S_, .f32⟩
  | .hbm, ⟨36, _⟩ => ⟨S100000, .f32⟩
  | .hbm, ⟨37, _⟩ => ⟨S600000x1, .i32⟩
  | .hbm, ⟨38, _⟩ => ⟨S100000, .f32⟩
  | .hbm, ⟨39, _⟩ => ⟨S_, .f32⟩
  | .hbm, ⟨40, _⟩ => ⟨S100000, .f32⟩
  | .hbm, ⟨41, _⟩ => ⟨S100000, .f32⟩
  | .hbm, ⟨42, _⟩ => ⟨S100000x1, .f32⟩
  | .hbm, ⟨43, _⟩ => ⟨S100000x128, .f32⟩
  | .hbm, ⟨44, _⟩ => ⟨S100000x128, .f32⟩
  | .hbm, ⟨45, _⟩ => ⟨S1x600000, .i32⟩
  | .hbm, ⟨46, _⟩ => ⟨S600000, .i32⟩
  | .hbm, ⟨47, _⟩ => ⟨S1x600000, .i32⟩
  | .hbm, ⟨48, _⟩ => ⟨S600000, .i32⟩
  | .hbm, ⟨49, _⟩ => ⟨S_, .i32⟩
  | .hbm, ⟨50, _⟩ => ⟨S600000, .i32⟩
  | .hbm, ⟨51, _⟩ => ⟨S600000, .i1⟩
  | .hbm, ⟨52, _⟩ => ⟨S_, .i32⟩
  | .hbm, ⟨53, _⟩ => ⟨S600000, .i32⟩
  | .hbm, ⟨54, _⟩ => ⟨S600000, .i32⟩
  | .hbm, ⟨55, _⟩ => ⟨S600000, .i32⟩
  | .hbm, ⟨56, _⟩ => ⟨S600000x1, .i32⟩
  | .hbm, ⟨57, _⟩ => ⟨S600000x128, .f32⟩
  | .hbm, ⟨58, _⟩ => ⟨S_, .f32⟩
  | .hbm, ⟨59, _⟩ => ⟨S20000x128, .f32⟩
  | .hbm, ⟨60, _⟩ => ⟨S600000x1, .i32⟩
  | .hbm, ⟨61, _⟩ => ⟨S20000x128, .f32⟩
  | .hbm, ⟨62, _⟩ => ⟨S_, .f32⟩
  | .hbm, ⟨63, _⟩ => ⟨S600000, .f32⟩
  | .hbm, ⟨64, _⟩ => ⟨S_, .f32⟩
  | .hbm, ⟨65, _⟩ => ⟨S20000, .f32⟩
  | .hbm, ⟨66, _⟩ => ⟨S600000x1, .i32⟩
  | .hbm, ⟨67, _⟩ => ⟨S20000, .f32⟩
  | .hbm, ⟨68, _⟩ => ⟨S_, .f32⟩
  | .hbm, ⟨69, _⟩ => ⟨S20000, .f32⟩
  | .hbm, ⟨70, _⟩ => ⟨S20000, .f32⟩
  | .hbm, ⟨71, _⟩ => ⟨S20000x1, .f32⟩
  | .hbm, ⟨72, _⟩ => ⟨S20000x128, .f32⟩
  | .hbm, ⟨73, _⟩ => ⟨S20000x128, .f32⟩
  | .hbm, ⟨74, _⟩ => ⟨S_, .i32⟩
  | .hbm, ⟨75, _⟩ => ⟨S600000, .i32⟩
  | .hbm, ⟨76, _⟩ => ⟨S600000, .i1⟩
  | .hbm, ⟨77, _⟩ => ⟨S_, .i32⟩
  | .hbm, ⟨78, _⟩ => ⟨S600000, .i32⟩
  | .hbm, ⟨79, _⟩ => ⟨S600000, .i32⟩
  | .hbm, ⟨80, _⟩ => ⟨S600000, .i32⟩
  | .hbm, ⟨81, _⟩ => ⟨S600000x1, .i32⟩
  | .hbm, ⟨82, _⟩ => ⟨S600000x128, .f32⟩
  | .hbm, ⟨83, _⟩ => ⟨S_, .f32⟩
  | .hbm, ⟨84, _⟩ => ⟨S100000x128, .f32⟩
  | .hbm, ⟨85, _⟩ => ⟨S600000x1, .i32⟩
  | .hbm, ⟨86, _⟩ => ⟨S100000x128, .f32⟩
  | .hbm, ⟨87, _⟩ => ⟨S_, .f32⟩
  | .hbm, ⟨88, _⟩ => ⟨S600000, .f32⟩
  | .hbm, ⟨89, _⟩ => ⟨S_, .f32⟩
  | .hbm, ⟨90, _⟩ => ⟨S100000, .f32⟩
  | .hbm, ⟨91, _⟩ => ⟨S600000x1, .i32⟩
  | .hbm, ⟨92, _⟩ => ⟨S100000, .f32⟩
  | .hbm, ⟨93, _⟩ => ⟨S_, .f32⟩
  | .hbm, ⟨94, _⟩ => ⟨S100000, .f32⟩
  | .hbm, ⟨95, _⟩ => ⟨S100000, .f32⟩
  | .hbm, ⟨96, _⟩ => ⟨S100000x1, .f32⟩
  | .hbm, ⟨97, _⟩ => ⟨S100000x128, .f32⟩
  | .hbm, ⟨98, _⟩ => ⟨S100000x128, .f32⟩
  | .hbm, ⟨99, _⟩ => ⟨S100000x128, .f32⟩
  | .hbm, ⟨100, _⟩ => ⟨S100000x128, .f32⟩
  | .hbm, ⟨101, _⟩ => ⟨S_, .f32⟩
  | .hbm, ⟨102, _⟩ => ⟨S100000x128, .f32⟩
  | .hbm, ⟨103, _⟩ => ⟨S100000x128, .f32⟩
  | .hbm, ⟨104, _⟩ => ⟨S20000x128, .f32⟩
  | .hbm, ⟨105, _⟩ => ⟨S_, .f32⟩
  | .hbm, ⟨106, _⟩ => ⟨S20000x128, .f32⟩
  | .hbm, ⟨107, _⟩ => ⟨S20000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_4 : Ref sig .tc := ⟨.hbm, 49, rfl⟩
abbrev main_v35 : Ref sig .tc := ⟨.hbm, 50, rfl⟩
abbrev main_v36 : Ref sig .tc := ⟨.hbm, 51, rfl⟩
abbrev main_c_5 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_6 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_10 : Ref sig .tc := ⟨.hbm, 74, rfl⟩
abbrev main_v54 : Ref sig .tc := ⟨.hbm, 75, rfl⟩
abbrev main_v55 : Ref sig .tc := ⟨.hbm, 76, rfl⟩
abbrev main_c_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_12 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_13 : Ref sig .tc := ⟨.hbm, 87, rfl⟩
abbrev main_v64 : Ref sig .tc := ⟨.hbm, 88, rfl⟩
abbrev main_cst_14 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_15 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_call0_cst : Ref sig .tc := ⟨.hbm, 101, rfl⟩
abbrev main_call0_v0 : Ref sig .tc := ⟨.hbm, 102, rfl⟩
abbrev main_v75 : Ref sig .tc := ⟨.hbm, 103, rfl⟩
abbrev main_v76 : Ref sig .tc := ⟨.hbm, 104, rfl⟩
abbrev main_call1_cst : Ref sig .tc := ⟨.hbm, 105, rfl⟩
abbrev main_call1_v0 : Ref sig .tc := ⟨.hbm, 106, rfl⟩
abbrev main_v77 : Ref sig .tc := ⟨.hbm, 107, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1x128_S20000x128_0_1 : S1x128.BroadcastsInDim S20000x128 (![0, 1] : Fin 2 → Fin S20000x128.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S20000x128 : S_.BroadcastsInDim S20000x128 (![] : Fin 0 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  dot_S100000x128_S128x128_S100000x128_1_0_0_1_n_n_wf : DotDims.WF S100000x128 S128x128 S100000x128 [1] [0] [0] [1] [] []
  dot_S20000x128_S128x128_S20000x128_1_0_0_1_n_n_wf : DotDims.WF S20000x128 S128x128 S20000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  scatter_S20000x128_S600000x1_S600000x128_1_0_0_1_wf : ScatterDims.WF S20000x128 S600000x1 S600000x128 [1] [0] [0] 1
  scatter_S20000_S600000x1_S600000_n_0_0_1_wf : ScatterDims.WF S20000 S600000x1 S600000 [] [0] [0] 1
  gather_S20000x128_S600000x1_S600000x128_1_0_n_n_0_1_1128_wf : GatherDims.WF S20000x128 S600000x1 S600000x128 [1] [0] [] [0] [] 1 ![1, 128]

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def scatter_S20000x128_S600000x1_S600000x128_1_0_0_1 : ScatterDims S20000x128 S600000x1 S600000x128 where
  updateWindowDims := [1]
  insertedWindowDims := [0]
  scatterDimsToOperandDims := [0]
  indexVectorDim := 1
  wf := scatter_S20000x128_S600000x1_S600000x128_1_0_0_1_wf
def scatter_S20000_S600000x1_S600000_n_0_0_1 : ScatterDims S20000 S600000x1 S600000 where
  updateWindowDims := []
  insertedWindowDims := [0]
  scatterDimsToOperandDims := [0]
  indexVectorDim := 1
  wf := scatter_S20000_S600000x1_S600000_n_0_0_1_wf
def gather_S20000x128_S600000x1_S600000x128_1_0_n_n_0_1_1128 : GatherDims S20000x128 S600000x1 S600000x128 where
  offsetDims := [1]
  collapsedSliceDims := [0]
  operandBatchingDims := []
  startIndicesBatchingDims := []
  startIndexMap := [0]
  indexVectorDim := 1
  sliceSizes := ![1, 128]
  wf := gather_S20000x128_S600000x1_S600000x128_1_0_n_n_0_1_1128_wf

class Facts : Prop extends Facts₀ where

variable [Facts]
-- ==== Proof.KernelRun.lean ====
/-
  The idealized kernel program's run, with EVERY buffer named.

  The program is four pipelined kernel launches among three stretches of host operations.  Its frame proof follows
  the contents of all unscoped buffers from one segment boundary to the next (`Gen.W0` … `Gen.W7`) and then keeps
  only what it says about the arguments.  Here the same run is stated with the whole final valuation kept: after
  every weakly fair execution each unscoped buffer `b` of core `c` holds `Gen.W7 m ρ c b`.  The value proof reads
  the two results off this valuation, and the arguments too.
-/
import proofs.«156939_j10496900072194_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and in its final state every unscoped
    buffer of every core holds the last boundary's contents `Gen.W7`: the launch over the seven segments, the last
    thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- The run with the two results and the eight arguments named: each result buffer at the last boundary's contents,
    each argument as launched. -/
theorem run_results : θ_run defs (onTc (τ := τ) (main (F := F))) ⟨m, fun _ => 0, ρ⟩ (fun r => ∀ c : Dev nD,
      r.2.mem ((c.tc : Thread nD τ).loc main_v72) = W7 m ρ c (Proc.devRef .tc main_v72)
      ∧ r.2.mem ((c.tc : Thread nD τ).loc main_v73) = W7 m ρ c (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun s h c =>
      ⟨h c _ (mem_uc main_v72 (by decide)),
       h c _ (mem_uc main_v73 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)
    (run_all m ρ)

end Cert.KernelIdeal.Whole

end
-- ==== Proof.ProjBlock.lean ====
/-
  The projection kernel's block: what one grid point of `x ↦ x · W + b` stores.

  Each of the two projection launches works on a block of 2000 rows.  Its body rounds the row block and the
  weight matrix to the narrow format (the identity on extended reals), multiplies them into a zero accumulator
  and adds the one-row bias spread over the rows.  Read at entry `j = (p, q)` of the block this is

      ∑ k < 128, x (p, k) · W (k, q)  +  b (0, q).

  The two launches print the same body, so the second payload is the first.
-/
import proofs.«156939_j10496900072194_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Proj

open Idealize.ShloMosaic Cert.KernelIdeal Cert.KernelIdeal.Gen

/-- Entry `(p, k)` of a row block, `p` the row of `j`. -/
abbrev lblk (j : S2000x128.Idx) (k : Fin 128) : S2000x128.Idx := fun a => match a with
  | ⟨0, _⟩ => ⟨(j 0).val, (j 0).isLt⟩
  | ⟨1, _⟩ => ⟨k.val, k.isLt⟩
/-- Entry `(k, q)` of the weight matrix, `q` the column of `j`. -/
abbrev rblk (j : S2000x128.Idx) (k : Fin 128) : S128x128.Idx := fun a => match a with
  | ⟨0, _⟩ => ⟨k.val, k.isLt⟩
  | ⟨1, _⟩ => ⟨(j 1).val, (j 1).isLt⟩
/-- Entry `(0, q)` of the one-row bias. -/
abbrev bblk (j : S2000x128.Idx) : S1x128.Idx := fun a => match a with
  | ⟨0, _⟩ => ⟨0, Nat.one_pos⟩
  | ⟨1, _⟩ => ⟨(j 1).val, (j 1).isLt⟩

/-- The left operand's index for output entry `i` and contraction position `q`: row `i 0`, column `q`. -/
theorem lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right operand's index for output entry `i` and contraction position `q`: row `q`, column `i 1`. -/
theorem rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product of a row block and the weight matrix into a zero accumulator, at an entry: the sum of products. -/
theorem matmul_block (x0 : FVec Ideal S2000x128 .bf16) (x1 : FVec Ideal S128x128 .bf16) (j : S2000x128.Idx) :
    matmul (F := Ideal) dot_S2000x128_S128x128_S2000x128_1_0_0_1_n_n none x0 x1 (constant S2000x128 .f32 0x00000000#32) j
      = ∑ k : Fin 128, x0 (lblk j k) * x1 (rblk j k) := by
  refine (Ideal.matmul_constant_zero_apply dot_S2000x128_S128x128_S2000x128_1_0_0_1_n_n none x0 x1 j).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx j ((ValueIdx.contrEquiv1 dot_S2000x128_S128x128_S2000x128_1_0_0_1_n_n 128 rfl rfl).symm k) = lblk j k := funext fun a => Fin.ext (by
    match a with
    | ⟨0, _⟩ => exact lhs_0 _ _
    | ⟨1, _⟩ => exact (lhs_1 _ _).trans hk)
  have er : dot_S2000x128_S128x128_S2000x128_1_0_0_1_n_n.rhsIdx j ((ValueIdx.contrEquiv1 dot_S2000x128_S128x128_S2000x128_1_0_0_1_n_n 128 rfl rfl).symm k) = rblk j k := funext fun a => Fin.ext (by
    match a with
    | ⟨0, _⟩ => exact (rhs_0 _ _).trans hk
    | ⟨1, _⟩ => exact rhs_1 _ _)
  rw [el, er]

/-- The one-row bias spread over the rows of the block, at an entry. -/
theorem bias_block (x2 : Vec Ideal S1x128 .f32) (j : S2000x128.Idx) :
    broadcastTo S2000x128 (shapeCast S1x128 x2 shapeCasts_S1x128_S1x128) broadcasts_S1x128_S2000x128 j = x2 (bblk j) := by
  rw [shapeCast_self]
  exact broadcastTo_apply x2 broadcasts_S1x128_S2000x128 j (bblk j) (fun a => match a with
    | ⟨0, _⟩ => by show 0 = if (1 : Nat) = 1 then 0 else _; rw [if_pos rfl]
    | ⟨1, _⟩ => by show (j 1).val = if (128 : Nat) = 1 then 0 else (j 1).val; rw [if_neg (by decide)])

/-- WHAT ONE POINT STORES, at an entry of the block. -/
theorem pay_apply (x0 : Vec Ideal S2000x128 .f32) (x1 : Vec Ideal S128x128 .f32) (x2 : Vec Ideal S1x128 .f32) (j : S2000x128.Idx) :
    k0_pay1 (F := Ideal) x0 x1 x2 j = (∑ k : Fin 128, x0 (lblk j k) * x1 (rblk j k)) + x2 (bblk j) := by
  unfold k0_pay1
  exact congrArg₂ (· + ·) (matmul_block _ _ j) (bias_block x2 j)

/-- The second projection launch prints the same body. -/
theorem pay1_eq : @k1_pay1 = @k0_pay1 := rfl

end Cert.KernelIdeal.Proj

end
-- ==== Proof.ProjArray0.lean ====
/-
  The first projection launch as ONE function of its arrays.

  The launch walks 50 blocks of 2000 rows; point `t` reads rows `2000·t … 2000·t + 1999` of the input, the whole
  weight matrix and the whole one-row bias, and writes back the same rows of the result.  So every entry `(n, q)` of
  the 100000×128 result ends at

      ∑ k < 128, x (n, k) · W (k, q)  +  b (0, q),

  whatever the contents `V` of the buffers when the launch is entered.
-/
import proofs.«156939_j10496900072194_2_alg».proof.Proof.Gen.KernelIdeal.Frame
import proofs.«156939_j10496900072194_2_alg».proof.Proof.ProjBlock

set_option maxRecDepth 16384

noncomputable section

namespace Cert.KernelIdeal.Proj0

open Idealize.ShloMosaic Idealize.ShloMosaic.TcCoe Idealize.SL.Sem
open Idealize.ShloMosaic.Pipeline (Dat Cfg Window)
open Cert.KernelIdeal Cert.KernelIdeal.Gen Cert.KernelIdeal.Proj

variable (V : (c : Dev nD) → (b : Ref sig .tc) → Buf (Elt Ideal) ((c : Thread nD τ).loc b))

/-- Entry `(n, k)` of the input, `n` the row of `i`. -/
abbrev lrow (i : S100000x128.Idx) (k : Fin 128) : S100000x128.Idx := fun a => match a with
  | ⟨0, _⟩ => ⟨(i 0).val, (i 0).isLt⟩
  | ⟨1, _⟩ => ⟨k.val, k.isLt⟩
/-- Entry `(k, q)` of the weight matrix, `q` the column of `i`. -/
abbrev rcol (i : S100000x128.Idx) (k : Fin 128) : S128x128.Idx := fun a => match a with
  | ⟨0, _⟩ => ⟨k.val, k.isLt⟩
  | ⟨1, _⟩ => ⟨(i 1).val, (i 1).isLt⟩
/-- Entry `(0, q)` of the one-row bias. -/
abbrev brow (i : S100000x128.Idx) : S1x128.Idx := fun a => match a with
  | ⟨0, _⟩ => ⟨0, Nat.one_pos⟩
  | ⟨1, _⟩ => ⟨(i 1).val, (i 1).isLt⟩

/-- The projection of all 100000 rows. -/
def proj (x : S100000x128.Idx → EReal) (w : S128x128.Idx → EReal) (b : S1x128.Idx → EReal) : S100000x128.Idx → EReal :=
  fun i => (∑ k : Fin 128, x (lrow i k) * w (rcol i k)) + b (brow i)

/-- One entry of the result from one entry of a block: if the block's row, the weight column and the bias entry are
    those of the arrays at index `i`, the stored value is `proj` at `i`. -/
theorem pay_eq_proj (X : S100000x128.Idx → EReal) (W : S128x128.Idx → EReal) (B : S1x128.Idx → EReal)
    (x0 : Vec Ideal S2000x128 .f32) (x1 : Vec Ideal S128x128 .f32) (x2 : Vec Ideal S1x128 .f32)
    (j : S2000x128.Idx) (i : S100000x128.Idx)
    (h0 : ∀ k : Fin 128, x0 (lblk j k) = X (lrow i k)) (h1 : ∀ k : Fin 128, x1 (rblk j k) = W (rcol i k))
    (h2 : x2 (bblk j) = B (brow i)) :
    k0_pay1 (F := Ideal) x0 x1 x2 j = proj X W B i := by
  rw [pay_apply]
  unfold proj
  rw [h2]
  exact congrArg (· + _) (Finset.sum_congr rfl fun k _ => by rw [h0 k, h1 k])

theorem hz : (![0, 0] : Fin 2 → Nat) = fun _ => 0 := funext fun a => by fin_cases a <;> rfl

/-- The printed index maps over the grid: the input and the result move together, one block of rows per point;
    the weight matrix and the bias stay at block 0. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) = t.val :=
  (by decide +kernel : ∀ t : Fin grid0.N, _)

/-- WHAT POINT `t` WRITES BACK is block `t` of `proj` of the arrays as the launch finds them. -/
theorem flushed_eq (c : Dev nD) (t : Fin cfg0.N) :
    (dat0 V c).flushed 3 t = ((cfg0.win 3).blk t).view.read (Elt Ideal) (proj (V c main_arg0) (V c main_arg4) (V c main_v0)) := by
  show (cfg0.win 3).cut (grid0.coords t) ((dat0 V c).after 3 t) = _
  rw [after0_3]
  unfold out0_3
  rw [View.canon_unit_zero hz]
  simp only [View.ld_unit_zero (S := S2000x128) hz, View.ld_unit_zero (S := S128x128) hz, View.ld_unit_zero (S := S1x128) hz]
  obtain ⟨e0, e1, e2, e3, e4, e5, e6, e7⟩ := idx_facts t
  funext j
  show k0_pay1 (F := Ideal) (iblk0 V c 0 t) (iblk0 V c 1 t) (iblk0 V c 2 t) j
      = proj (V c main_arg0) (V c main_arg4) (V c main_v0) (((cfg0.win 3).blk t).view.emb j)
  have h0 : ∀ k : Fin 128, ((cfg0.win 0).blk t).view.emb (lblk j k) = lrow (((cfg0.win 3).blk t).view.emb j) k := fun k => by
    funext a; apply Fin.ext
    match a with
    | ⟨0, _⟩ => show win0_0.index t (0 : Fin 2) * 2000 + 1 * (j 0).val = win0_3.index t (0 : Fin 2) * 2000 + 1 * (j 0).val; omega
    | ⟨1, _⟩ => show win0_0.index t (1 : Fin 2) * 128 + 1 * k.val = k.val; omega
  have h1 : ∀ k : Fin 128, ((cfg0.win 1).blk t).view.emb (rblk j k) = rcol (((cfg0.win 3).blk t).view.emb j) k := fun k => by
    funext a; apply Fin.ext
    match a with
    | ⟨0, _⟩ => show win0_1.index t (0 : Fin 2) * 128 + 1 * k.val = k.val; omega
    | ⟨1, _⟩ => show win0_1.index t (1 : Fin 2) * 128 + 1 * (j 1).val = win0_3.index t (1 : Fin 2) * 128 + 1 * (j 1).val; omega
  have h2 : ((cfg0.win 2).blk t).view.emb (bblk j) = brow (((cfg0.win 3).blk t).view.emb j) := by
    funext a; apply Fin.ext
    match a with
    | ⟨0, _⟩ => show win0_2.index t (0 : Fin 2) * 1 + 1 * 0 = 0; omega
    | ⟨1, _⟩ => show win0_2.index t (1 : Fin 2) * 128 + 1 * (j 1).val = win0_3.index t (1 : Fin 2) * 128 + 1 * (j 1).val; omega
  refine pay_eq_proj _ _ _ _ _ _ j _ (fun k => ?_) (fun k => ?_) ?_
  · show V c main_arg0 (((cfg0.win 0).blk t).view.emb (lblk j k)) = V c main_arg0 (lrow (((cfg0.win 3).blk t).view.emb j) k)
    rw [h0 k]
  · show V c main_arg4 (((cfg0.win 1).blk t).view.emb (rblk j k)) = V c main_arg4 (rcol (((cfg0.win 3).blk t).view.emb j) k)
    rw [h1 k]
  · show V c main_v0 (((cfg0.win 2).blk t).view.emb (bblk j)) = V c main_v0 (brow (((cfg0.win 3).blk t).view.emb j))
    rw [h2]

/-- An index of the result is in point `t`'s block iff each coordinate is in the block's range on its axis. -/
theorem mem_blk (t : Fin cfg0.N) (i : S100000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v1).slice (win0_3.rect t)).set ↔ _
  rw [View.set_slice_whole, Rect.mem_set_unit]
  exact Iff.rfl

/-- The blocks tile the result: row `n` is in the block of point `n / 2000`. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : grid0.N = 50 := N_0
  have ht : (i 0).val / 2000 < grid0.N := by rw [hN]; omega
  refine ⟨⟨(i 0).val / 2000, ht⟩, flush0_3 _, ?_⟩
  rw [mem_blk]
  obtain ⟨e0, e1, e2, e3, e4, e5, e6, e7⟩ := idx_facts ⟨(i 0).val / 2000, ht⟩
  intro a
  match a with
  | ⟨0, _⟩ =>
    show win0_3.index ⟨(i 0).val / 2000, ht⟩ (0 : Fin 2) * 2000 ≤ (i 0).val ∧ (i 0).val < win0_3.index ⟨(i 0).val / 2000, ht⟩ (0 : Fin 2) * 2000 + 2000
    rw [e7]
    show (i 0).val / 2000 * 2000 ≤ (i 0).val ∧ (i 0).val < (i 0).val / 2000 * 2000 + 2000
    omega
  | ⟨1, _⟩ =>
    show win0_3.index ⟨(i 0).val / 2000, ht⟩ (1 : Fin 2) * 128 ≤ (i 1).val ∧ (i 1).val < win0_3.index ⟨(i 0).val / 2000, ht⟩ (1 : Fin 2) * 128 + 128
    rw [e6]
    omega

/-- THE RESULT ARRAY after the launch: `proj` of the arrays the launch found. -/
theorem final (c : Dev nD) :
    (dat0 V c).arrAt 3 cfg0.N = proj (V c main_arg0) (V c main_arg4) (V c main_v0) :=
  (dat0 V c).arrAt_eq_of_cover 3 (proj (V c main_arg0) (V c main_arg4) (V c main_v0)) (fun t _ => flushed_eq V c t) cover

end Cert.KernelIdeal.Proj0

end
-- ==== Proof.ProjArray1.lean ====
/-
  The second projection launch as ONE function of its arrays.

  The launch walks 10 blocks of 2000 rows; point `t` reads rows `2000·t … 2000·t + 1999` of the input, the whole
  weight matrix and the whole one-row bias, and writes back the same rows of the result.  So every entry `(n, q)` of
  the 20000×128 result ends at

      ∑ k < 128, x (n, k) · W (k, q)  +  b (0, q),

  whatever the contents `V` of the buffers when the launch is entered.
-/
import proofs.«156939_j10496900072194_2_alg».proof.Proof.Gen.KernelIdeal.Frame
import proofs.«156939_j10496900072194_2_alg».proof.Proof.ProjBlock

set_option maxRecDepth 16384

noncomputable section

namespace Cert.KernelIdeal.Proj1

open Idealize.ShloMosaic Idealize.ShloMosaic.TcCoe Idealize.SL.Sem
open Idealize.ShloMosaic.Pipeline (Dat Cfg Window)
open Cert.KernelIdeal Cert.KernelIdeal.Gen Cert.KernelIdeal.Proj

variable (V : (c : Dev nD) → (b : Ref sig .tc) → Buf (Elt Ideal) ((c : Thread nD τ).loc b))

/-- Entry `(n, k)` of the input, `n` the row of `i`. -/
abbrev lrow (i : S20000x128.Idx) (k : Fin 128) : S20000x128.Idx := fun a => match a with
  | ⟨0, _⟩ => ⟨(i 0).val, (i 0).isLt⟩
  | ⟨1, _⟩ => ⟨k.val, k.isLt⟩
/-- Entry `(k, q)` of the weight matrix, `q` the column of `i`. -/
abbrev rcol (i : S20000x128.Idx) (k : Fin 128) : S128x128.Idx := fun a => match a with
  | ⟨0, _⟩ => ⟨k.val, k.isLt⟩
  | ⟨1, _⟩ => ⟨(i 1).val, (i 1).isLt⟩
/-- Entry `(0, q)` of the one-row bias. -/
abbrev brow (i : S20000x128.Idx) : S1x128.Idx := fun a => match a with
  | ⟨0, _⟩ => ⟨0, Nat.one_pos⟩
  | ⟨1, _⟩ => ⟨(i 1).val, (i 1).isLt⟩

/-- The projection of all 20000 rows. -/
def proj (x : S20000x128.Idx → EReal) (w : S128x128.Idx → EReal) (b : S1x128.Idx → EReal) : S20000x128.Idx → EReal :=
  fun i => (∑ k : Fin 128, x (lrow i k) * w (rcol i k)) + b (brow i)

/-- One entry of the result from one entry of a block: if the block's row, the weight column and the bias entry are
    those of the arrays at index `i`, the stored value is `proj` at `i`. -/
theorem pay_eq_proj (X : S20000x128.Idx → EReal) (W : S128x128.Idx → EReal) (B : S1x128.Idx → EReal)
    (x0 : Vec Ideal S2000x128 .f32) (x1 : Vec Ideal S128x128 .f32) (x2 : Vec Ideal S1x128 .f32)
    (j : S2000x128.Idx) (i : S20000x128.Idx)
    (h0 : ∀ k : Fin 128, x0 (lblk j k) = X (lrow i k)) (h1 : ∀ k : Fin 128, x1 (rblk j k) = W (rcol i k))
    (h2 : x2 (bblk j) = B (brow i)) :
    k1_pay1 (F := Ideal) x0 x1 x2 j = proj X W B i := by
  rw [pay1_eq, pay_apply]
  unfold proj
  rw [h2]
  exact congrArg (· + _) (Finset.sum_congr rfl fun k _ => by rw [h0 k, h1 k])

theorem hz : (![0, 0] : Fin 2 → Nat) = fun _ => 0 := funext fun a => by fin_cases a <;> rfl

/-- The printed index maps over the grid: the input and the result move together, one block of rows per point;
    the weight matrix and the bias stay at block 0. -/
theorem idx_facts : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) = t.val :=
  (by decide +kernel : ∀ t : Fin grid1.N, _)

/-- WHAT POINT `t` WRITES BACK is block `t` of `proj` of the arrays as the launch finds them. -/
theorem flushed_eq (c : Dev nD) (t : Fin cfg1.N) :
    (dat1 V c).flushed 3 t = ((cfg1.win 3).blk t).view.read (Elt Ideal) (proj (V c main_arg1) (V c main_arg6) (V c main_v2)) := by
  show (cfg1.win 3).cut (grid1.coords t) ((dat1 V c).after 3 t) = _
  rw [after1_3]
  unfold out1_3
  rw [View.canon_unit_zero hz]
  simp only [View.ld_unit_zero (S := S2000x128) hz, View.ld_unit_zero (S := S128x128) hz, View.ld_unit_zero (S := S1x128) hz]
  obtain ⟨e0, e1, e2, e3, e4, e5, e6, e7⟩ := idx_facts t
  funext j
  show k1_pay1 (F := Ideal) (iblk1 V c 0 t) (iblk1 V c 1 t) (iblk1 V c 2 t) j
      = proj (V c main_arg1) (V c main_arg6) (V c main_v2) (((cfg1.win 3).blk t).view.emb j)
  have h0 : ∀ k : Fin 128, ((cfg1.win 0).blk t).view.emb (lblk j k) = lrow (((cfg1.win 3).blk t).view.emb j) k := fun k => by
    funext a; apply Fin.ext
    match a with
    | ⟨0, _⟩ => show win1_0.index t (0 : Fin 2) * 2000 + 1 * (j 0).val = win1_3.index t (0 : Fin 2) * 2000 + 1 * (j 0).val; omega
    | ⟨1, _⟩ => show win1_0.index t (1 : Fin 2) * 128 + 1 * k.val = k.val; omega
  have h1 : ∀ k : Fin 128, ((cfg1.win 1).blk t).view.emb (rblk j k) = rcol (((cfg1.win 3).blk t).view.emb j) k := fun k => by
    funext a; apply Fin.ext
    match a with
    | ⟨0, _⟩ => show win1_1.index t (0 : Fin 2) * 128 + 1 * k.val = k.val; omega
    | ⟨1, _⟩ => show win1_1.index t (1 : Fin 2) * 128 + 1 * (j 1).val = win1_3.index t (1 : Fin 2) * 128 + 1 * (j 1).val; omega
  have h2 : ((cfg1.win 2).blk t).view.emb (bblk j) = brow (((cfg1.win 3).blk t).view.emb j) := by
    funext a; apply Fin.ext
    match a with
    | ⟨0, _⟩ => show win1_2.index t (0 : Fin 2) * 1 + 1 * 0 = 0; omega
    | ⟨1, _⟩ => show win1_2.index t (1 : Fin 2) * 128 + 1 * (j 1).val = win1_3.index t (1 : Fin 2) * 128 + 1 * (j 1).val; omega
  refine pay_eq_proj _ _ _ _ _ _ j _ (fun k => ?_) (fun k => ?_) ?_
  · show V c main_arg1 (((cfg1.win 0).blk t).view.emb (lblk j k)) = V c main_arg1 (lrow (((cfg1.win 3).blk t).view.emb j) k)
    rw [h0 k]
  · show V c main_arg6 (((cfg1.win 1).blk t).view.emb (rblk j k)) = V c main_arg6 (rcol (((cfg1.win 3).blk t).view.emb j) k)
    rw [h1 k]
  · show V c main_v2 (((cfg1.win 2).blk t).view.emb (bblk j)) = V c main_v2 (brow (((cfg1.win 3).blk t).view.emb j))
    rw [h2]

/-- An index of the result is in point `t`'s block iff each coordinate is in the block's range on its axis. -/
theorem mem_blk (t : Fin cfg1.N) (i : S20000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v3).slice (win1_3.rect t)).set ↔ _
  rw [View.set_slice_whole, Rect.mem_set_unit]
  exact Iff.rfl

/-- The blocks tile the result: row `n` is in the block of point `n / 2000`. -/
theorem cover (i : S20000x128.Idx) :
    ∃ t : Fin cfg1.N, (cfg1.win 3).flush t = true ∧ i ∈ ((cfg1.win 3).blk t).view.set := by
  have hi0 : (i 0).val < 20000 := (i 0).isLt
  have hi1 : (i 1).val < 128 := (i 1).isLt
  have hN : grid1.N = 10 := N_1
  have ht : (i 0).val / 2000 < grid1.N := by rw [hN]; omega
  refine ⟨⟨(i 0).val / 2000, ht⟩, flush1_3 _, ?_⟩
  rw [mem_blk]
  obtain ⟨e0, e1, e2, e3, e4, e5, e6, e7⟩ := idx_facts ⟨(i 0).val / 2000, ht⟩
  intro a
  match a with
  | ⟨0, _⟩ =>
    show win1_3.index ⟨(i 0).val / 2000, ht⟩ (0 : Fin 2) * 2000 ≤ (i 0).val ∧ (i 0).val < win1_3.index ⟨(i 0).val / 2000, ht⟩ (0 : Fin 2) * 2000 + 2000
    rw [e7]
    show (i 0).val / 2000 * 2000 ≤ (i 0).val ∧ (i 0).val < (i 0).val / 2000 * 2000 + 2000
    omega
  | ⟨1, _⟩ =>
    show win1_3.index ⟨(i 0).val / 2000, ht⟩ (1 : Fin 2) * 128 ≤ (i 1).val ∧ (i 1).val < win1_3.index ⟨(i 0).val / 2000, ht⟩ (1 : Fin 2) * 128 + 128
    rw [e6]
    omega

/-- THE RESULT ARRAY after the launch: `proj` of the arrays the launch found. -/
theorem final (c : Dev nD) :
    (dat1 V c).arrAt 3 cfg1.N = proj (V c main_arg1) (V c main_arg6) (V c main_v2) :=
  (dat1 V c).arrAt_eq_of_cover 3 (proj (V c main_arg1) (V c main_arg6) (V c main_v2)) (fun t _ => flushed_eq V c t) cover

end Cert.KernelIdeal.Proj1

end
-- ==== Proof.KernelProj.lean ====
/-
  The two projections as the kernel program leaves them for the host stretch that follows.

  Walking the boundary valuations back from the third host stretch: the operators' projection is what the first
  launch wrote, the machines' what the second wrote, nothing in between overwrites either; the launches found the
  arguments as launched (no host operation writes an argument) and each bias as the [128] argument re-laid as one
  row.  So at the entry of the third host stretch

      main_v1 = proj (H_op, W_op, b_op as a row),   main_v3 = proj (H_m, W_m, b_m as a row),

  and the two edge lists are the arguments.
-/
import proofs.«156939_j10496900072194_2_alg».proof.Proof.Gen.KernelIdeal.Frame
import proofs.«156939_j10496900072194_2_alg».proof.Proof.ProjArray0
import proofs.«156939_j10496900072194_2_alg».proof.Proof.ProjArray1
import Idealize.ShloMosaic.Lib.StableHlo.Run

set_option maxRecDepth 16384

noncomputable section

namespace Cert.KernelIdeal.Entry

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ### The arguments at the first launch -/

theorem W1_arg0 : W1 m ρ c (Proc.devRef .tc main_arg0) = m ((c : Thread nD τ).loc main_arg0) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0 (W0 m ρ c) (Proc.devRef .tc main_arg0) = W0 m ρ c (Proc.devRef .tc main_arg0))
theorem W1_arg4 : W1 m ρ c (Proc.devRef .tc main_arg4) = m ((c : Thread nD τ).loc main_arg4) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0 (W0 m ρ c) (Proc.devRef .tc main_arg4) = W0 m ρ c (Proc.devRef .tc main_arg4))
/-- The operators' bias as one row. -/
theorem W1_v0 : (W1 m ρ c (Proc.devRef .tc main_v0) : S1x128.Idx → EReal)
    = shapeCast S1x128 (m ((c : Thread nD τ).loc main_arg5) : S128.Idx → EReal) shapeCasts_S128_S1x128 := by
  show StableHlo.after hostOps0 (W0 m ρ c) (Proc.devRef .tc main_v0) = _
  after_results
  rfl

/-- THE OPERATORS' PROJECTION at the exit of the first launch. -/
theorem W2_v1 : (W2 m ρ c (Proc.devRef .tc main_v1) : S100000x128.Idx → EReal)
    = Proj0.proj (m ((c : Thread nD τ).loc main_arg0)) (m ((c : Thread nD τ).loc main_arg4))
        (shapeCast S1x128 (m ((c : Thread nD τ).loc main_arg5) : S128.Idx → EReal) shapeCasts_S128_S1x128) := by
  refine ((W2_arr m ρ c 3).trans (Proj0.final (V1 m ρ) c)).trans ?_
  show Proj0.proj (W1 m ρ c (Proc.devRef .tc main_arg0)) (W1 m ρ c (Proc.devRef .tc main_arg4)) (W1 m ρ c (Proc.devRef .tc main_v0)) = _
  rw [W1_arg0, W1_arg4, W1_v0]

/-! ### The arguments at the second launch and at the third host stretch -/

/-- A buffer that neither of the first two host stretches nor the first launch writes holds its launch contents at
    the entry of the second launch: here the machines' rows, their weight matrix, their bias and the two edge lists. -/
theorem W2_arg1 : W2 m ρ c (Proc.devRef .tc main_arg1) = m ((c : Thread nD τ).loc main_arg1) :=
  (W2_of_ne m ρ c main_arg1 (by decide)).trans (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0 (W0 m ρ c) (Proc.devRef .tc main_arg1) = W0 m ρ c (Proc.devRef .tc main_arg1))
theorem W2_arg6 : W2 m ρ c (Proc.devRef .tc main_arg6) = m ((c : Thread nD τ).loc main_arg6) :=
  (W2_of_ne m ρ c main_arg6 (by decide)).trans (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0 (W0 m ρ c) (Proc.devRef .tc main_arg6) = W0 m ρ c (Proc.devRef .tc main_arg6))
theorem W2_arg7 : W2 m ρ c (Proc.devRef .tc main_arg7) = m ((c : Thread nD τ).loc main_arg7) :=
  (W2_of_ne m ρ c main_arg7 (by decide)).trans (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0 (W0 m ρ c) (Proc.devRef .tc main_arg7) = W0 m ρ c (Proc.devRef .tc main_arg7))
theorem W2_arg2 : W2 m ρ c (Proc.devRef .tc main_arg2) = m ((c : Thread nD τ).loc main_arg2) :=
  (W2_of_ne m ρ c main_arg2 (by decide)).trans (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0 (W0 m ρ c) (Proc.devRef .tc main_arg2) = W0 m ρ c (Proc.devRef .tc main_arg2))
theorem W2_arg3 : W2 m ρ c (Proc.devRef .tc main_arg3) = m ((c : Thread nD τ).loc main_arg3) :=
  (W2_of_ne m ρ c main_arg3 (by decide)).trans (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0 (W0 m ρ c) (Proc.devRef .tc main_arg3) = W0 m ρ c (Proc.devRef .tc main_arg3))

theorem W3_arg1 : W3 m ρ c (Proc.devRef .tc main_arg1) = m ((c : Thread nD τ).loc main_arg1) :=
  (StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps1 (W2 m ρ c) (Proc.devRef .tc main_arg1) = W2 m ρ c (Proc.devRef .tc main_arg1)).trans (W2_arg1 m ρ c)
theorem W3_arg6 : W3 m ρ c (Proc.devRef .tc main_arg6) = m ((c : Thread nD τ).loc main_arg6) :=
  (StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps1 (W2 m ρ c) (Proc.devRef .tc main_arg6) = W2 m ρ c (Proc.devRef .tc main_arg6)).trans (W2_arg6 m ρ c)
/-- The machines' bias as one row. -/
theorem W3_v2 : (W3 m ρ c (Proc.devRef .tc main_v2) : S1x128.Idx → EReal)
    = shapeCast S1x128 (m ((c : Thread nD τ).loc main_arg7) : S128.Idx → EReal) shapeCasts_S128_S1x128 := by
  show StableHlo.after hostOps1 (W2 m ρ c) (Proc.devRef .tc main_v2) = _
  after_results
  rw [W2_arg7]
  rfl
theorem W3_v1 : W3 m ρ c (Proc.devRef .tc main_v1) = W2 m ρ c (Proc.devRef .tc main_v1) :=
  (StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps1 (W2 m ρ c) (Proc.devRef .tc main_v1) = W2 m ρ c (Proc.devRef .tc main_v1))

/-- THE OPERATORS' PROJECTION at the entry of the third host stretch: the second launch does not touch it. -/
theorem W4_v1 : (W4 m ρ c (Proc.devRef .tc main_v1) : S100000x128.Idx → EReal)
    = Proj0.proj (m ((c : Thread nD τ).loc main_arg0)) (m ((c : Thread nD τ).loc main_arg4))
        (shapeCast S1x128 (m ((c : Thread nD τ).loc main_arg5) : S128.Idx → EReal) shapeCasts_S128_S1x128) :=
  ((W4_of_ne m ρ c main_v1 (by decide)).trans (W3_v1 m ρ c)).trans (W2_v1 m ρ c)

/-- THE MACHINES' PROJECTION at the exit of the second launch. -/
theorem W4_v3 : (W4 m ρ c (Proc.devRef .tc main_v3) : S20000x128.Idx → EReal)
    = Proj1.proj (m ((c : Thread nD τ).loc main_arg1)) (m ((c : Thread nD τ).loc main_arg6))
        (shapeCast S1x128 (m ((c : Thread nD τ).loc main_arg7) : S128.Idx → EReal) shapeCasts_S128_S1x128) := by
  refine ((W4_arr m ρ c 3).trans (Proj1.final (V3 m ρ) c)).trans ?_
  show Proj1.proj (W3 m ρ c (Proc.devRef .tc main_arg1)) (W3 m ρ c (Proc.devRef .tc main_arg6)) (W3 m ρ c (Proc.devRef .tc main_v2)) = _
  rw [W3_arg1, W3_arg6, W3_v2]

/-- The two edge lists at the entry of the third host stretch are the arguments. -/
theorem W4_arg2 : W4 m ρ c (Proc.devRef .tc main_arg2) = m ((c : Thread nD τ).loc main_arg2) :=
  ((W4_of_ne m ρ c main_arg2 (by decide)).trans (StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps1 (W2 m ρ c) (Proc.devRef .tc main_arg2) = W2 m ρ c (Proc.devRef .tc main_arg2))).trans (W2_arg2 m ρ c)
theorem W4_arg3 : W4 m ρ c (Proc.devRef .tc main_arg3) = m ((c : Thread nD τ).loc main_arg3) :=
  ((W4_of_ne m ρ c main_arg3 (by decide)).trans (StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps1 (W2 m ρ c) (Proc.devRef .tc main_arg3) = W2 m ρ c (Proc.devRef .tc main_arg3))).trans (W2_arg3 m ρ c)

end Cert.KernelIdeal.Entry

end
-- ==== Proof.Stages.lean ====
/-
  The message-passing stages both programs share, as functions of the projected rows.

  Each program gathers projected rows along one edge list, scatter-adds them at the other end of the edges, and
  scales by the reciprocal of the in-degree clamped at one.  The edge arithmetic (cutting the two rows of an edge
  list apart, wrapping negative indices, laying indices out as a column) is the same text in both programs; here it
  is taken from the reference's stage functions, and the projected rows `P` (operators) and `Pm` (machines) are
  left as variables, so that the kernel's projections can be put in their place.

  The one place where the programs differ is the degree: the reference adds ones as floats, the kernel adds ones
  as 32-bit integers, converts, clamps and takes the reciprocal.
-/
import proofs.«156939_j10496900072194_2_alg».proof.Proof.Gen.ReferenceIdeal.Read
import Idealize.ShloMosaic.PureOps.Ideal

noncomputable section

namespace Cert.Stages

open Idealize.ShloMosaic Cert.ReferenceIdeal Cert.ReferenceIdeal.Read

/-- Messages along the operator-to-operator edges `e`: rows of `P` gathered at the sources, summed at the targets. -/
def sumSeq (P : (⟨S100000x128, .f32⟩ : BufTy).Contents (Elt Ideal)) (e : (⟨S2x600000, .i32⟩ : BufTy).Contents (Elt Ideal)) : (⟨S100000x128, .f32⟩ : BufTy).Contents (Elt Ideal) :=
  Host.scatterAdd (F := Ideal) (φ := .f32) scatter_S100000x128_S600000x1_S600000x128_1_0_0_1 (val_main_v19 (F := Ideal)) (val_main_v20 (F := Ideal) e)
    (Host.gather gather_S100000x128_S600000x1_S600000x128_1_0_n_n_0_1_1128 P (val_main_v17 (F := Ideal) e))

/-- Messages from operators to machines along the edges `e`: rows of `P` gathered at the operator ends, summed at
    the machine ends. -/
def sumToM (P : (⟨S100000x128, .f32⟩ : BufTy).Contents (Elt Ideal)) (e : (⟨S2x600000, .i32⟩ : BufTy).Contents (Elt Ideal)) : (⟨S20000x128, .f32⟩ : BufTy).Contents (Elt Ideal) :=
  Host.scatterAdd (F := Ideal) (φ := .f32) scatter_S20000x128_S600000x1_S600000x128_1_0_0_1 (val_main_v42 (F := Ideal)) (val_main_v43 (F := Ideal) e)
    (Host.gather gather_S100000x128_S600000x1_S600000x128_1_0_n_n_0_1_1128 P (val_main_v40 (F := Ideal) e))

/-- Messages from machines to operators along the edges `e`: rows of `Pm` gathered at the machine ends, summed at
    the operator ends. -/
def sumToOp (Pm : (⟨S20000x128, .f32⟩ : BufTy).Contents (Elt Ideal)) (e : (⟨S2x600000, .i32⟩ : BufTy).Contents (Elt Ideal)) : (⟨S100000x128, .f32⟩ : BufTy).Contents (Elt Ideal) :=
  Host.scatterAdd (F := Ideal) (φ := .f32) scatter_S100000x128_S600000x1_S600000x128_1_0_0_1 (val_main_v61 (F := Ideal)) (val_main_v62 (F := Ideal) e)
    (Host.gather gather_S20000x128_S600000x1_S600000x128_1_0_n_n_0_1_1128 Pm (val_main_v59 (F := Ideal) e))

theorem val_main_v21_eq (x0 : (⟨S100000x128, .f32⟩ : BufTy).Contents (Elt Ideal)) (x2 : (⟨S2x600000, .i32⟩ : BufTy).Contents (Elt Ideal)) (x4 : (⟨S128x128, .f32⟩ : BufTy).Contents (Elt Ideal)) (x5 : (⟨S128, .f32⟩ : BufTy).Contents (Elt Ideal)) :
    val_main_v21 (F := Ideal) x0 x2 x4 x5 = sumSeq (val_main_v3 (F := Ideal) x0 x4 x5) x2 := rfl
theorem val_main_v44_eq (x0 : (⟨S100000x128, .f32⟩ : BufTy).Contents (Elt Ideal)) (x3 : (⟨S2x600000, .i32⟩ : BufTy).Contents (Elt Ideal)) (x4 : (⟨S128x128, .f32⟩ : BufTy).Contents (Elt Ideal)) (x5 : (⟨S128, .f32⟩ : BufTy).Contents (Elt Ideal)) :
    val_main_v44 (F := Ideal) x0 x3 x4 x5 = sumToM (val_main_v3 (F := Ideal) x0 x4 x5) x3 := rfl
theorem val_main_v63_eq (x1 : (⟨S20000x128, .f32⟩ : BufTy).Contents (Elt Ideal)) (x3 : (⟨S2x600000, .i32⟩ : BufTy).Contents (Elt Ideal)) (x6 : (⟨S128x128, .f32⟩ : BufTy).Contents (Elt Ideal)) (x7 : (⟨S128, .f32⟩ : BufTy).Contents (Elt Ideal)) :
    val_main_v63 (F := Ideal) x1 x3 x6 x7 = sumToOp (val_main_v7 (F := Ideal) x1 x6 x7) x3 := rfl

/-- The kernel's reciprocal in-degree: ones added as 32-bit integers at the scatter targets `idx`, converted, clamped
    at one from below, and one divided by it. -/
def recipCount {s si u : Shape} (d : ScatterDims s si u) (idx : IVec si 32) : FVec Ideal s .f32 :=
  Host.divf (F := Ideal) (fun _ => Ideal.ofBits .f32 0x3F800000#32)
    (maximumf (F := Ideal) (sitofp .f32 (Host.scatter d IntOp.addi (fun _ => (0#32 : BitVec 32)) idx (fun _ => (1#32 : BitVec 32))))
      (fun _ => Ideal.ofBits .f32 0x3F800000#32))

end Cert.Stages

end
-- ==== Proof.KernelHostSeq.lean ====
/-
  The third host stretch of the kernel program, read at the buffers the operator-to-operator edges feed.

  From the valuation `W` the stretch is entered with: the projected operator rows pass through untouched; the summed
  messages are the shared stage `sumSeq` of those rows and the edge list; the reciprocal in-degree column is the
  integer count of the targets, converted, clamped at one and inverted, laid out as a column.
-/
import proofs.«156939_j10496900072194_2_alg».proof.Proof.Gen.KernelIdeal.Launch
import proofs.«156939_j10496900072194_2_alg».proof.Proof.Stages
import Idealize.ShloMosaic.Lib.StableHlo.Run

set_option maxRecDepth 16384

noncomputable section

namespace Cert.KernelIdeal.HostSeq

open Idealize.ShloMosaic Idealize.ShloMosaic.TcCoe Idealize.SL.Sem Idealize.ShloMosaic.StableHlo
open Cert.KernelIdeal Cert.KernelIdeal.Gen

variable (W : Valuation τ sig (Elt Ideal))

set_option maxHeartbeats 4000000 in
/-- The summed messages along the operator-to-operator edges. -/
theorem read_v17 : (StableHlo.after hostOps2 W (Proc.devRef .tc main_v17) : S100000x128.Idx → EReal)
    = Cert.Stages.sumSeq (W (Proc.devRef .tc main_v1)) (W (Proc.devRef .tc main_arg2)) := by
  dsimp only [hostOps2]
  after_results_simp
  rfl

set_option maxHeartbeats 4000000 in
/-- The reciprocal in-degree column of the operator-to-operator edges. -/
theorem read_v27 : (StableHlo.after hostOps2 W (Proc.devRef .tc main_v27) : S100000x1.Idx → EReal)
    = broadcastInDim S100000x1 ![0] bcast_S100000_S100000x1_0
        (Cert.Stages.recipCount scatter_S100000_S600000x1_S600000_n_0_0_1
          (Cert.ReferenceIdeal.Read.val_main_v24 (F := Ideal) (W (Proc.devRef .tc main_arg2)))) := by
  dsimp only [hostOps2]
  after_results_simp
  rfl

set_option maxHeartbeats 4000000 in
/-- The projected operator rows pass through. -/
theorem read_v1 : StableHlo.after hostOps2 W (Proc.devRef .tc main_v1) = W (Proc.devRef .tc main_v1) := by
  dsimp only [hostOps2]
  after_results_simp

end Cert.KernelIdeal.HostSeq

end
-- ==== Proof.KernelHostBip.lean ====
/-
  The third host stretch of the kernel program, read at the buffers the operator–machine edges feed.

  From the valuation `W` the stretch is entered with: the projected machine rows pass through untouched; the messages
  summed at the machines and those summed at the operators are the shared stages of the projected rows and the edge
  list; each reciprocal in-degree column is the integer count of the arriving edges, converted, clamped at one and
  inverted, laid out as a column.
-/
import proofs.«156939_j10496900072194_2_alg».proof.Proof.Gen.KernelIdeal.Launch
import proofs.«156939_j10496900072194_2_alg».proof.Proof.Stages
import Idealize.ShloMosaic.Lib.StableHlo.Run

set_option maxRecDepth 16384

noncomputable section

namespace Cert.KernelIdeal.HostBip

open Idealize.ShloMosaic Idealize.ShloMosaic.TcCoe Idealize.SL.Sem Idealize.ShloMosaic.StableHlo
open Cert.KernelIdeal Cert.KernelIdeal.Gen

variable (W : Valuation τ sig (Elt Ideal))

set_option maxHeartbeats 4000000 in
/-- The messages from machines summed at the operators. -/
theorem read_v61 : (StableHlo.after hostOps2 W (Proc.devRef .tc main_v61) : S100000x128.Idx → EReal)
    = Cert.Stages.sumToOp (W (Proc.devRef .tc main_v3)) (W (Proc.devRef .tc main_arg3)) := by
  dsimp only [hostOps2]
  after_results_simp
  rfl

set_option maxHeartbeats 4000000 in
/-- The reciprocal in-degree column of the operators, over the operator–machine edges. -/
theorem read_v71 : (StableHlo.after hostOps2 W (Proc.devRef .tc main_v71) : S100000x1.Idx → EReal)
    = broadcastInDim S100000x1 ![0] bcast_S100000_S100000x1_0
        (Cert.Stages.recipCount scatter_S100000_S600000x1_S600000_n_0_0_1
          (Cert.ReferenceIdeal.Read.val_main_v66 (F := Ideal) (W (Proc.devRef .tc main_arg3)))) := by
  dsimp only [hostOps2]
  after_results_simp
  rfl

set_option maxHeartbeats 4000000 in
/-- The messages from operators summed at the machines. -/
theorem read_v41 : (StableHlo.after hostOps2 W (Proc.devRef .tc main_v41) : S20000x128.Idx → EReal)
    = Cert.Stages.sumToM (W (Proc.devRef .tc main_v1)) (W (Proc.devRef .tc main_arg3)) := by
  dsimp only [hostOps2]
  after_results_simp
  rfl

set_option maxHeartbeats 4000000 in
/-- The reciprocal in-degree column of the machines. -/
theorem read_v51 : (StableHlo.after hostOps2 W (Proc.devRef .tc main_v51) : S20000x1.Idx → EReal)
    = broadcastInDim S20000x1 ![0] bcast_S20000_S20000x1_0
        (Cert.Stages.recipCount scatter_S20000_S600000x1_S600000_n_0_0_1
          (Cert.ReferenceIdeal.Read.val_main_v47 (F := Ideal) (W (Proc.devRef .tc main_arg3)))) := by
  dsimp only [hostOps2]
  after_results_simp
  rfl

set_option maxHeartbeats 4000000 in
/-- The projected machine rows pass through. -/
theorem read_v3 : StableHlo.after hostOps2 W (Proc.devRef .tc main_v3) = W (Proc.devRef .tc main_v3) := by
  dsimp only [hostOps2]
  after_results_simp

end Cert.KernelIdeal.HostBip

end
-- ==== Proof.CombineBlock.lean ====
/-
  The combine kernels' block: what one grid point of `relu (proj + s₁ · inv₁ + s₂ · inv₂)` stores.

  Each combine launch works on a block of 4000 rows.  The body spreads each 4000×1 column of reciprocal degrees
  over the 128 features, scales the summed messages by it, adds the projection and clamps at zero.  Read at entry
  `j = (p, q)` of the block, with `(p, 0)` the entry of a column on the same row:

      three-operand form:  max ((proj j + s₁ j · inv₁ (p,0)) + s₂ j · inv₂ (p,0)) 0
      two-operand form:    max (proj j + s j · inv (p,0)) 0.
-/
import proofs.«156939_j10496900072194_2_alg».proof.Proof.Gen.KernelIdeal.Skeleton
import Idealize.ShloMosaic.Lib.Pipeline.Value
import Idealize.ShloMosaic.Lib.ValueIdx

noncomputable section

namespace Cert.KernelIdeal.Combine

open Idealize.ShloMosaic Cert.KernelIdeal Cert.KernelIdeal.Gen

/-- Entry `(p, 0)` of a 4000×1 column, `p` the row of `j`. -/
abbrev cblk (j : S4000x128.Idx) : S4000x1.Idx := fun a => match a with
  | ⟨0, _⟩ => ⟨(j 0).val, (j 0).isLt⟩
  | ⟨1, _⟩ => ⟨0, Nat.one_pos⟩

/-- A 4000×1 column spread over the 128 features, at an entry. -/
theorem column_block (x : Vec Ideal S4000x1 .f32) (j : S4000x128.Idx) :
    broadcastTo S4000x128 x broadcasts_S4000x1_S4000x128 j = x (cblk j) := by
  exact broadcastTo_apply x broadcasts_S4000x1_S4000x128 j (cblk j) (fun a => match a with
    | ⟨0, _⟩ => by show (j 0).val = if (4000 : Nat) = 1 then 0 else (j 0).val; rw [if_neg (by decide)]
    | ⟨1, _⟩ => by show 0 = if (1 : Nat) = 1 then 0 else _; rw [if_pos rfl])

/-- WHAT ONE POINT OF THE THREE-OPERAND COMBINE STORES, at an entry of the block. -/
theorem pay3_apply (inv1 inv2 : Vec Ideal S4000x1 .f32) (proj s1 s2 : Vec Ideal S4000x128 .f32) (j : S4000x128.Idx) :
    k2_pay1 (F := Ideal) inv1 inv2 proj s1 s2 j
      = max ((proj j + s1 j * inv1 (cblk j)) + s2 j * inv2 (cblk j)) (Ideal.ofBits .f32 0x00000000#32) := by
  unfold k2_pay1
  show max ((shapeCast S4000x128 proj shapeCasts_S4000x128_S4000x128 j
        + shapeCast S4000x128 s1 shapeCasts_S4000x128_S4000x128 j * broadcastTo S4000x128 _ broadcasts_S4000x1_S4000x128 j)
        + shapeCast S4000x128 s2 shapeCasts_S4000x128_S4000x128 j * broadcastTo S4000x128 _ broadcasts_S4000x1_S4000x128 j) _ = _
  simp only [shapeCast_self]
  rw [column_block, column_block]
  rfl

/-- WHAT ONE POINT OF THE TWO-OPERAND COMBINE STORES, at an entry of the block. -/
theorem pay2_apply (inv : Vec Ideal S4000x1 .f32) (proj s : Vec Ideal S4000x128 .f32) (j : S4000x128.Idx) :
    k3_pay1 (F := Ideal) inv proj s j
      = max (proj j + s j * inv (cblk j)) (Ideal.ofBits .f32 0x00000000#32) := by
  unfold k3_pay1
  show max (shapeCast S4000x128 proj shapeCasts_S4000x128_S4000x128 j
        + shapeCast S4000x128 s shapeCasts_S4000x128_S4000x128 j * broadcastTo S4000x128 _ broadcasts_S4000x1_S4000x128 j) _ = _
  simp only [shapeCast_self]
  rw [column_block]
  rfl

end Cert.KernelIdeal.Combine

end
-- ==== Proof.CombArray2.lean ====
/-
  The three-operand combine launch as ONE function of its arrays.

  The launch walks 25 blocks of 4000 rows; point `t` reads rows `4000·t … 4000·t + 3999` of every operand (the
  100000×128 arrays and the 100000×1 columns alike) and writes back the same rows of the result.  So every entry
  `(n, q)` of the result ends at max ((proj (n,q) + s₁ (n,q) · inv₁ (n,0)) + s₂ (n,q) · inv₂ (n,0)) 0,
  whatever the contents `V` of the buffers when the launch is entered.
-/
import proofs.«156939_j10496900072194_2_alg».proof.Proof.Gen.KernelIdeal.Frame
import proofs.«156939_j10496900072194_2_alg».proof.Proof.CombineBlock

set_option maxRecDepth 16384

noncomputable section

namespace Cert.KernelIdeal.Comb2

open Idealize.ShloMosaic Idealize.ShloMosaic.TcCoe Idealize.SL.Sem
open Idealize.ShloMosaic.Pipeline (Dat Cfg Window)
open Cert.KernelIdeal Cert.KernelIdeal.Gen Cert.KernelIdeal.Combine

variable (V : (c : Dev nD) → (b : Ref sig .tc) → Buf (Elt Ideal) ((c : Thread nD τ).loc b))

/-- Entry `(n, 0)` of a 100000×1 column, `n` the row of `i`. -/
abbrev ccol (i : S100000x128.Idx) : S100000x1.Idx := fun a => match a with
  | ⟨0, _⟩ => ⟨(i 0).val, (i 0).isLt⟩
  | ⟨1, _⟩ => ⟨0, Nat.one_pos⟩

/-- The combined and clamped rows, all 100000 of them. -/
def comb3 (p s1 : S100000x128.Idx → EReal) (i1 : S100000x1.Idx → EReal) (s2 : S100000x128.Idx → EReal) (i2 : S100000x1.Idx → EReal) : S100000x128.Idx → EReal :=
  fun i => max ((p i + s1 i * i1 (ccol i)) + s2 i * i2 (ccol i)) (Ideal.ofBits .f32 0x00000000#32)

/-- One entry of the result from one entry of a block: if the block's entries are those of the arrays at index `i`
    (the columns' at `(n, 0)`), the stored value is `comb3` at `i`. -/
theorem pay_eq_comb (Pa S1 : S100000x128.Idx → EReal) (I1 : S100000x1.Idx → EReal) (S2 : S100000x128.Idx → EReal) (I2 : S100000x1.Idx → EReal)
    (inv1 inv2 : Vec Ideal S4000x1 .f32) (proj s1 s2 : Vec Ideal S4000x128 .f32) (j : S4000x128.Idx) (i : S100000x128.Idx)
    (hp : proj j = Pa i) (h1 : s1 j = S1 i) (hi1 : inv1 (cblk j) = I1 (ccol i)) (h2 : s2 j = S2 i) (hi2 : inv2 (cblk j) = I2 (ccol i)) :
    k2_pay1 (F := Ideal) inv1 inv2 proj s1 s2 j = comb3 Pa S1 I1 S2 I2 i := by
  rw [pay3_apply, hp, h1, hi1, h2, hi2]
  rfl

theorem hz : (![0, 0] : Fin 2 → Nat) = fun _ => 0 := funext fun a => by fin_cases a <;> rfl

/-- The printed index maps over the grid: every operand and the result move together, one block of rows per point. -/
theorem idx_facts : ∀ t : Fin cfg2.N, win2_0.index t (0 : Fin 2) = win2_5.index t (0 : Fin 2)
    ∧ win2_0.index t (1 : Fin 2) = 0
    ∧ win2_1.index t (0 : Fin 2) = win2_5.index t (0 : Fin 2)
    ∧ win2_1.index t (1 : Fin 2) = 0
    ∧ win2_2.index t (0 : Fin 2) = win2_5.index t (0 : Fin 2)
    ∧ win2_2.index t (1 : Fin 2) = 0
    ∧ win2_3.index t (0 : Fin 2) = win2_5.index t (0 : Fin 2)
    ∧ win2_3.index t (1 : Fin 2) = 0
    ∧ win2_4.index t (0 : Fin 2) = win2_5.index t (0 : Fin 2)
    ∧ win2_4.index t (1 : Fin 2) = 0
    ∧ win2_5.index t (1 : Fin 2) = 0
    ∧ win2_5.index t (0 : Fin 2) = t.val :=
  (by decide +kernel : ∀ t : Fin grid2.N, _)

/-- WHAT POINT `t` WRITES BACK is block `t` of `comb3` of the arrays as the launch finds them. -/
theorem flushed_eq (c : Dev nD) (t : Fin cfg2.N) :
    (dat2 V c).flushed 5 t = ((cfg2.win 5).blk t).view.read (Elt Ideal) (comb3 (V c main_v1) (V c main_v17) (V c main_v27) (V c main_v61) (V c main_v71)) := by
  show (cfg2.win 5).cut (grid2.coords t) ((dat2 V c).after 5 t) = _
  rw [after2_5]
  unfold out2_5
  rw [View.canon_unit_zero hz]
  simp only [View.ld_unit_zero (S := S4000x128) hz, View.ld_unit_zero (S := S4000x1) hz]
  obtain ⟨e0, e1, e2, e3, e4, e5, e6, e7, e8, e9, e10, e11⟩ := idx_facts t
  funext j
  show k2_pay1 (F := Ideal) (iblk2 V c 2 t) (iblk2 V c 4 t) (iblk2 V c 0 t) (iblk2 V c 1 t) (iblk2 V c 3 t) j
      = comb3 (V c main_v1) (V c main_v17) (V c main_v27) (V c main_v61) (V c main_v71) (((cfg2.win 5).blk t).view.emb j)
  have h0 : (((cfg2.win 0).blk t).view.emb j) = (((cfg2.win 5).blk t).view.emb j) := by
    funext a; apply Fin.ext
    match a with
    | ⟨0, _⟩ => show win2_0.index t (0 : Fin 2) * 4000 + 1 * (j 0).val = win2_5.index t (0 : Fin 2) * 4000 + 1 * (j 0).val; omega
    | ⟨1, _⟩ => show win2_0.index t (1 : Fin 2) * 128 + 1 * (j 1).val = win2_5.index t (1 : Fin 2) * 128 + 1 * (j 1).val; omega
  have h1 : (((cfg2.win 1).blk t).view.emb j) = (((cfg2.win 5).blk t).view.emb j) := by
    funext a; apply Fin.ext
    match a with
    | ⟨0, _⟩ => show win2_1.index t (0 : Fin 2) * 4000 + 1 * (j 0).val = win2_5.index t (0 : Fin 2) * 4000 + 1 * (j 0).val; omega
    | ⟨1, _⟩ => show win2_1.index t (1 : Fin 2) * 128 + 1 * (j 1).val = win2_5.index t (1 : Fin 2) * 128 + 1 * (j 1).val; omega
  have h3 : (((cfg2.win 3).blk t).view.emb j) = (((cfg2.win 5).blk t).view.emb j) := by
    funext a; apply Fin.ext
    match a with
    | ⟨0, _⟩ => show win2_3.index t (0 : Fin 2) * 4000 + 1 * (j 0).val = win2_5.index t (0 : Fin 2) * 4000 + 1 * (j 0).val; omega
    | ⟨1, _⟩ => show win2_3.index t (1 : Fin 2) * 128 + 1 * (j 1).val = win2_5.index t (1 : Fin 2) * 128 + 1 * (j 1).val; omega
  have h2 : (((cfg2.win 2).blk t).view.emb (cblk j)) = ccol (((cfg2.win 5).blk t).view.emb j) := by
    funext a; apply Fin.ext
    match a with
    | ⟨0, _⟩ => show win2_2.index t (0 : Fin 2) * 4000 + 1 * (j 0).val = win2_5.index t (0 : Fin 2) * 4000 + 1 * (j 0).val; omega
    | ⟨1, _⟩ => show win2_2.index t (1 : Fin 2) * 1 + 1 * 0 = 0; omega
  have h4 : (((cfg2.win 4).blk t).view.emb (cblk j)) = ccol (((cfg2.win 5).blk t).view.emb j) := by
    funext a; apply Fin.ext
    match a with
    | ⟨0, _⟩ => show win2_4.index t (0 : Fin 2) * 4000 + 1 * (j 0).val = win2_5.index t (0 : Fin 2) * 4000 + 1 * (j 0).val; omega
    | ⟨1, _⟩ => show win2_4.index t (1 : Fin 2) * 1 + 1 * 0 = 0; omega
  refine pay_eq_comb _ _ _ _ _ _ _ _ _ _ j _ ?_ ?_ ?_ ?_ ?_
  · show V c main_v1 (((cfg2.win 0).blk t).view.emb j) = V c main_v1 (((cfg2.win 5).blk t).view.emb j)
    rw [h0]
  · show V c main_v17 (((cfg2.win 1).blk t).view.emb j) = V c main_v17 (((cfg2.win 5).blk t).view.emb j)
    rw [h1]
  · show V c main_v27 (((cfg2.win 2).blk t).view.emb (cblk j)) = V c main_v27 (ccol (((cfg2.win 5).blk t).view.emb j))
    rw [h2]
  · show V c main_v61 (((cfg2.win 3).blk t).view.emb j) = V c main_v61 (((cfg2.win 5).blk t).view.emb j)
    rw [h3]
  · show V c main_v71 (((cfg2.win 4).blk t).view.emb (cblk j)) = V c main_v71 (ccol (((cfg2.win 5).blk t).view.emb j))
    rw [h4]

/-- An index of the result is in point `t`'s block iff each coordinate is in the block's range on its axis. -/
theorem mem_blk (t : Fin cfg2.N) (i : S100000x128.Idx) :
    i ∈ ((cfg2.win 5).blk t).view.set ↔ ∀ a : Fin 2, win2_5.index t a * S4000x128.size a ≤ (i a).val ∧ (i a).val < win2_5.index t a * S4000x128.size a + S4000x128.size a := by
  show i ∈ ((View.whole main_v72).slice (win2_5.rect t)).set ↔ _
  rw [View.set_slice_whole, Rect.mem_set_unit]
  exact Iff.rfl

/-- The blocks tile the result: row `n` is in the block of point `n / 4000`. -/
theorem cover (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : grid2.N = 25 := N_2
  have ht : (i 0).val / 4000 < grid2.N := by rw [hN]; omega
  refine ⟨⟨(i 0).val / 4000, ht⟩, flush2_5 _, ?_⟩
  rw [mem_blk]
  obtain ⟨e0, e1, e2, e3, e4, e5, e6, e7, e8, e9, e10, e11⟩ := idx_facts ⟨(i 0).val / 4000, ht⟩
  intro a
  match a with
  | ⟨0, _⟩ =>
    show win2_5.index ⟨(i 0).val / 4000, ht⟩ (0 : Fin 2) * 4000 ≤ (i 0).val ∧ (i 0).val < win2_5.index ⟨(i 0).val / 4000, ht⟩ (0 : Fin 2) * 4000 + 4000
    rw [e11]
    show (i 0).val / 4000 * 4000 ≤ (i 0).val ∧ (i 0).val < (i 0).val / 4000 * 4000 + 4000
    omega
  | ⟨1, _⟩ =>
    show win2_5.index ⟨(i 0).val / 4000, ht⟩ (1 : Fin 2) * 128 ≤ (i 1).val ∧ (i 1).val < win2_5.index ⟨(i 0).val / 4000, ht⟩ (1 : Fin 2) * 128 + 128
    rw [e10]
    omega

/-- THE RESULT ARRAY after the launch: `comb3` of the arrays the launch found. -/
theorem final (c : Dev nD) :
    (dat2 V c).arrAt 5 cfg2.N = comb3 (V c main_v1) (V c main_v17) (V c main_v27) (V c main_v61) (V c main_v71) :=
  (dat2 V c).arrAt_eq_of_cover 5 (comb3 (V c main_v1) (V c main_v17) (V c main_v27) (V c main_v61) (V c main_v71)) (fun t _ => flushed_eq V c t) cover

end Cert.KernelIdeal.Comb2

end
-- ==== Proof.CombArray3.lean ====
/-
  The two-operand combine launch as ONE function of its arrays.

  The launch walks 5 blocks of 4000 rows; point `t` reads rows `4000·t … 4000·t + 3999` of every operand (the
  20000×128 arrays and the 20000×1 columns alike) and writes back the same rows of the result.  So every entry
  `(n, q)` of the result ends at max (proj (n,q) + s (n,q) · inv (n,0)) 0,
  whatever the contents `V` of the buffers when the launch is entered.
-/
import proofs.«156939_j10496900072194_2_alg».proof.Proof.Gen.KernelIdeal.Frame
import proofs.«156939_j10496900072194_2_alg».proof.Proof.CombineBlock

set_option maxRecDepth 16384

noncomputable section

namespace Cert.KernelIdeal.Comb3

open Idealize.ShloMosaic Idealize.ShloMosaic.TcCoe Idealize.SL.Sem
open Idealize.ShloMosaic.Pipeline (Dat Cfg Window)
open Cert.KernelIdeal Cert.KernelIdeal.Gen Cert.KernelIdeal.Combine

variable (V : (c : Dev nD) → (b : Ref sig .tc) → Buf (Elt Ideal) ((c : Thread nD τ).loc b))

/-- Entry `(n, 0)` of a 20000×1 column, `n` the row of `i`. -/
abbrev ccol (i : S20000x128.Idx) : S20000x1.Idx := fun a => match a with
  | ⟨0, _⟩ => ⟨(i 0).val, (i 0).isLt⟩
  | ⟨1, _⟩ => ⟨0, Nat.one_pos⟩

/-- The combined and clamped rows, all 20000 of them. -/
def comb2 (p s : S20000x128.Idx → EReal) (i1 : S20000x1.Idx → EReal) : S20000x128.Idx → EReal :=
  fun i => max (p i + s i * i1 (ccol i)) (Ideal.ofBits .f32 0x00000000#32)

/-- One entry of the result from one entry of a block: if the block's entries are those of the arrays at index `i`
    (the column's at `(n, 0)`), the stored value is `comb2` at `i`. -/
theorem pay_eq_comb (Pa S1 : S20000x128.Idx → EReal) (I1 : S20000x1.Idx → EReal)
    (inv : Vec Ideal S4000x1 .f32) (proj s : Vec Ideal S4000x128 .f32) (j : S4000x128.Idx) (i : S20000x128.Idx)
    (hp : proj j = Pa i) (h1 : s j = S1 i) (hi1 : inv (cblk j) = I1 (ccol i)) :
    k3_pay1 (F := Ideal) inv proj s j = comb2 Pa S1 I1 i := by
  rw [pay2_apply, hp, h1, hi1]
  rfl

theorem hz : (![0, 0] : Fin 2 → Nat) = fun _ => 0 := funext fun a => by fin_cases a <;> rfl

/-- The printed index maps over the grid: every operand and the result move together, one block of rows per point. -/
theorem idx_facts : ∀ t : Fin cfg3.N, win3_0.index t (0 : Fin 2) = win3_3.index t (0 : Fin 2)
    ∧ win3_0.index t (1 : Fin 2) = 0
    ∧ win3_1.index t (0 : Fin 2) = win3_3.index t (0 : Fin 2)
    ∧ win3_1.index t (1 : Fin 2) = 0
    ∧ win3_2.index t (0 : Fin 2) = win3_3.index t (0 : Fin 2)
    ∧ win3_2.index t (1 : Fin 2) = 0
    ∧ win3_3.index t (1 : Fin 2) = 0
    ∧ win3_3.index t (0 : Fin 2) = t.val :=
  (by decide +kernel : ∀ t : Fin grid3.N, _)

/-- WHAT POINT `t` WRITES BACK is block `t` of `comb2` of the arrays as the launch finds them. -/
theorem flushed_eq (c : Dev nD) (t : Fin cfg3.N) :
    (dat3 V c).flushed 3 t = ((cfg3.win 3).blk t).view.read (Elt Ideal) (comb2 (V c main_v3) (V c main_v41) (V c main_v51)) := by
  show (cfg3.win 3).cut (grid3.coords t) ((dat3 V c).after 3 t) = _
  rw [after3_3]
  unfold out3_3
  rw [View.canon_unit_zero hz]
  simp only [View.ld_unit_zero (S := S4000x128) hz, View.ld_unit_zero (S := S4000x1) hz]
  obtain ⟨e0, e1, e2, e3, e4, e5, e6, e7⟩ := idx_facts t
  funext j
  show k3_pay1 (F := Ideal) (iblk3 V c 2 t) (iblk3 V c 0 t) (iblk3 V c 1 t) j
      = comb2 (V c main_v3) (V c main_v41) (V c main_v51) (((cfg3.win 3).blk t).view.emb j)
  have h0 : (((cfg3.win 0).blk t).view.emb j) = (((cfg3.win 3).blk t).view.emb j) := by
    funext a; apply Fin.ext
    match a with
    | ⟨0, _⟩ => show win3_0.index t (0 : Fin 2) * 4000 + 1 * (j 0).val = win3_3.index t (0 : Fin 2) * 4000 + 1 * (j 0).val; omega
    | ⟨1, _⟩ => show win3_0.index t (1 : Fin 2) * 128 + 1 * (j 1).val = win3_3.index t (1 : Fin 2) * 128 + 1 * (j 1).val; omega
  have h1 : (((cfg3.win 1).blk t).view.emb j) = (((cfg3.win 3).blk t).view.emb j) := by
    funext a; apply Fin.ext
    match a with
    | ⟨0, _⟩ => show win3_1.index t (0 : Fin 2) * 4000 + 1 * (j 0).val = win3_3.index t (0 : Fin 2) * 4000 + 1 * (j 0).val; omega
    | ⟨1, _⟩ => show win3_1.index t (1 : Fin 2) * 128 + 1 * (j 1).val = win3_3.index t (1 : Fin 2) * 128 + 1 * (j 1).val; omega
  have h2 : (((cfg3.win 2).blk t).view.emb (cblk j)) = ccol (((cfg3.win 3).blk t).view.emb j) := by
    funext a; apply Fin.ext
    match a with
    | ⟨0, _⟩ => show win3_2.index t (0 : Fin 2) * 4000 + 1 * (j 0).val = win3_3.index t (0 : Fin 2) * 4000 + 1 * (j 0).val; omega
    | ⟨1, _⟩ => show win3_2.index t (1 : Fin 2) * 1 + 1 * 0 = 0; omega
  refine pay_eq_comb _ _ _ _ _ _ j _ ?_ ?_ ?_
  · show V c main_v3 (((cfg3.win 0).blk t).view.emb j) = V c main_v3 (((cfg3.win 3).blk t).view.emb j)
    rw [h0]
  · show V c main_v41 (((cfg3.win 1).blk t).view.emb j) = V c main_v41 (((cfg3.win 3).blk t).view.emb j)
    rw [h1]
  · show V c main_v51 (((cfg3.win 2).blk t).view.emb (cblk j)) = V c main_v51 (ccol (((cfg3.win 3).blk t).view.emb j))
    rw [h2]

/-- An index of the result is in point `t`'s block iff each coordinate is in the block's range on its axis. -/
theorem mem_blk (t : Fin cfg3.N) (i : S20000x128.Idx) :
    i ∈ ((cfg3.win 3).blk t).view.set ↔ ∀ a : Fin 2, win3_3.index t a * S4000x128.size a ≤ (i a).val ∧ (i a).val < win3_3.index t a * S4000x128.size a + S4000x128.size a := by
  show i ∈ ((View.whole main_v73).slice (win3_3.rect t)).set ↔ _
  rw [View.set_slice_whole, Rect.mem_set_unit]
  exact Iff.rfl

/-- The blocks tile the result: row `n` is in the block of point `n / 4000`. -/
theorem cover (i : S20000x128.Idx) :
    ∃ t : Fin cfg3.N, (cfg3.win 3).flush t = true ∧ i ∈ ((cfg3.win 3).blk t).view.set := by
  have hi0 : (i 0).val < 20000 := (i 0).isLt
  have hi1 : (i 1).val < 128 := (i 1).isLt
  have hN : grid3.N = 5 := N_3
  have ht : (i 0).val / 4000 < grid3.N := by rw [hN]; omega
  refine ⟨⟨(i 0).val / 4000, ht⟩, flush3_3 _, ?_⟩
  rw [mem_blk]
  obtain ⟨e0, e1, e2, e3, e4, e5, e6, e7⟩ := idx_facts ⟨(i 0).val / 4000, ht⟩
  intro a
  match a with
  | ⟨0, _⟩ =>
    show win3_3.index ⟨(i 0).val / 4000, ht⟩ (0 : Fin 2) * 4000 ≤ (i 0).val ∧ (i 0).val < win3_3.index ⟨(i 0).val / 4000, ht⟩ (0 : Fin 2) * 4000 + 4000
    rw [e7]
    show (i 0).val / 4000 * 4000 ≤ (i 0).val ∧ (i 0).val < (i 0).val / 4000 * 4000 + 4000
    omega
  | ⟨1, _⟩ =>
    show win3_3.index ⟨(i 0).val / 4000, ht⟩ (1 : Fin 2) * 128 ≤ (i 1).val ∧ (i 1).val < win3_3.index ⟨(i 0).val / 4000, ht⟩ (1 : Fin 2) * 128 + 128
    rw [e6]
    omega

/-- THE RESULT ARRAY after the launch: `comb2` of the arrays the launch found. -/
theorem final (c : Dev nD) :
    (dat3 V c).arrAt 3 cfg3.N = comb2 (V c main_v3) (V c main_v41) (V c main_v51) :=
  (dat3 V c).arrAt_eq_of_cover 3 (comb2 (V c main_v3) (V c main_v41) (V c main_v51)) (fun t _ => flushed_eq V c t) cover

end Cert.KernelIdeal.Comb3

end
-- ==== Proof.ProjRef.lean ====
import proofs.«156939_j10496900072194_2_alg».proof.Proof.ProjArray0
import proofs.«156939_j10496900072194_2_alg».proof.Proof.ProjArray1
import proofs.«156939_j10496900072194_2_alg».proof.Proof.Gen.ReferenceIdeal.Read
import Idealize.ShloMosaic.Lib.Pipeline.Value

/-!
# The kernel's projection is the reference's

The kernel's projection of a matrix `x` by a weight matrix `W` with a one-row bias `b` has, at `(n, q)`, the entry

    ∑ k < 128, x (n, k) · W (k, q)  +  b (0, q).

The reference computes the same entry in four steps: a contraction of `x` with `W` over the shared axis, the bias
vector read as a one-row matrix, that row repeated down all rows, and the sum of the two. Read at `(n, q)` the four
steps give `∑ k < 128, x (n, k) · W (k, q) + bias q`. The kernel is handed the bias vector recast as a one-row
matrix, whose entry `(0, q)` is the vector's entry `q` (same row-major position), so the two results are the same
array. This is said once for the 100000-row projection (`proj_op_eq`) and once for the 20000-row one (`proj_m_eq`).
-/

noncomputable section

namespace Cert.ProjRef

open Idealize.ShloMosaic

/-- The bias vector recast as a one-row matrix, read at `(0, q)`, is the vector at `q`: both have row-major
position `q`. Here `j` is any index of the one-row matrix and `k` any index of the vector with the same last
coordinate. -/
theorem bias_row (b : Cert.KernelIdeal.S128.Idx → EReal) (h : Cert.KernelIdeal.S128.ShapeCasts Cert.KernelIdeal.S1x128)
    (j : Cert.KernelIdeal.S1x128.Idx) (k : Cert.KernelIdeal.S128.Idx) (hjk : (k 0).val = (j 1).val) :
    shapeCast Cert.KernelIdeal.S1x128 b h j = b k := by
  refine shapeCast_apply b h j k ?_
  have hj0 : (j 0).val = 0 := by
    have : (j 0).val < 1 := (j 0).isLt
    omega
  rw [Shape.rowMajor_val_two, Shape.rowMajor_val_one, hjk, hj0]
  show (j 1).val = 0 * 128 + (j 1).val
  rw [Nat.zero_mul, Nat.zero_add]

/-- The 100000-row projection: the kernel's sum of products plus bias is the reference's contraction plus the
repeated bias row, entry by entry. The index maps of the two sums are the same functions of the coordinates. -/
theorem proj_op_eq (x0 : Cert.ReferenceIdeal.S100000x128.Idx → EReal) (x4 : Cert.ReferenceIdeal.S128x128.Idx → EReal)
    (x5 : Cert.ReferenceIdeal.S128.Idx → EReal) (h : Cert.KernelIdeal.S128.ShapeCasts Cert.KernelIdeal.S1x128) :
    Cert.KernelIdeal.Proj0.proj x0 x4 (shapeCast Cert.KernelIdeal.S1x128 x5 h)
      = Cert.ReferenceIdeal.Read.val_main_v3 (F := Ideal) x0 x4 x5 := by
  funext i
  rw [Cert.ReferenceIdeal.Read.val_main_v3_apply, Cert.ReferenceIdeal.Read.val_main_v0_apply,
    Cert.ReferenceIdeal.Read.val_main_v2_apply, Cert.ReferenceIdeal.Read.val_main_v1_apply, Ideal.addf_def]
  unfold Cert.KernelIdeal.Proj0.proj
  have hl : ∀ k : Fin 128, Cert.KernelIdeal.Proj0.lrow i k = Cert.ReferenceIdeal.Read.lidx_main_v0 i k := fun k =>
    funext fun a => match a with
      | ⟨0, _⟩ => rfl
      | ⟨1, _⟩ => rfl
  have hr : ∀ k : Fin 128, Cert.KernelIdeal.Proj0.rcol i k = Cert.ReferenceIdeal.Read.ridx_main_v0 i k := fun k =>
    funext fun a => match a with
      | ⟨0, _⟩ => rfl
      | ⟨1, _⟩ => rfl
  have hb : shapeCast Cert.KernelIdeal.S1x128 x5 h (Cert.KernelIdeal.Proj0.brow i)
      = x5 (Cert.ReferenceIdeal.Read.idx_main_v1 (Cert.ReferenceIdeal.Read.idx_main_v2 i)) :=
    bias_row x5 h _ _ rfl
  rw [hb]
  exact congrArg (· + _) (Finset.sum_congr rfl fun k _ => by rw [hl k, hr k])

/-- The 20000-row projection: the same statement for the second pair of operands. -/
theorem proj_m_eq (x1 : Cert.ReferenceIdeal.S20000x128.Idx → EReal) (x6 : Cert.ReferenceIdeal.S128x128.Idx → EReal)
    (x7 : Cert.ReferenceIdeal.S128.Idx → EReal) (h : Cert.KernelIdeal.S128.ShapeCasts Cert.KernelIdeal.S1x128) :
    Cert.KernelIdeal.Proj1.proj x1 x6 (shapeCast Cert.KernelIdeal.S1x128 x7 h)
      = Cert.ReferenceIdeal.Read.val_main_v7 (F := Ideal) x1 x6 x7 := by
  funext i
  rw [Cert.ReferenceIdeal.Read.val_main_v7_apply, Cert.ReferenceIdeal.Read.val_main_v4_apply,
    Cert.ReferenceIdeal.Read.val_main_v6_apply, Cert.ReferenceIdeal.Read.val_main_v5_apply, Ideal.addf_def]
  unfold Cert.KernelIdeal.Proj1.proj
  have hl : ∀ k : Fin 128, Cert.KernelIdeal.Proj1.lrow i k = Cert.ReferenceIdeal.Read.lidx_main_v4 i k := fun k =>
    funext fun a => match a with
      | ⟨0, _⟩ => rfl
      | ⟨1, _⟩ => rfl
  have hr : ∀ k : Fin 128, Cert.KernelIdeal.Proj1.rcol i k = Cert.ReferenceIdeal.Read.ridx_main_v4 i k := fun k =>
    funext fun a => match a with
      | ⟨0, _⟩ => rfl
      | ⟨1, _⟩ => rfl
  have hb : shapeCast Cert.KernelIdeal.S1x128 x7 h (Cert.KernelIdeal.Proj1.brow i)
      = x7 (Cert.ReferenceIdeal.Read.idx_main_v5 (Cert.ReferenceIdeal.Read.idx_main_v6 i)) :=
    bias_row x7 h _ _ rfl
  rw [hb]
  exact congrArg (· + _) (Finset.sum_congr rfl fun k _ => by rw [hl k, hr k])

end Cert.ProjRef

end
-- ==== Proof.LibDegreeCount.lean ====
import Idealize.ShloMosaic.PureOps.Ideal
import Idealize.ShloMosaic.PureOps.Contract
import Idealize.ShloMosaic.Lib.IdealHost
import Mathlib.Data.BitVec

/-!
# Counting by scatter-add

A scatter whose body is an addition, folded over the update positions, leaves at each operand position the
operand's element plus the sum of the updates that land there: the order of the fold does not matter because
addition is commutative and associative (`foldl_add_step`, `scatter_addi_apply`).

Scattering ones into zeros therefore counts, at each position, the updates that land there (`hits`). The count
is the same whether it is accumulated in 32-bit integers and then converted to a float (`int_count`, as long as
the number of updates is below `2 ^ 31`, so that neither wrap-around nor a sign bit can appear) or accumulated
directly in exact extended reals (`float_count`).

Finally, multiplying by the reciprocal of `max k 1` is dividing by `max k 1` (`mul_inv_count`): the divisor is at
least one, hence not zero.
-/

namespace Cert.DegreeCount
open Idealize.ShloMosaic
noncomputable section

/-- Fold, over a list `L` of pairwise distinct positions, a step that adds the value `v n` to the entry `g n` of
the running array and leaves the other entries alone (and does nothing when `g n` is `none`): this is what
`hstep` says of `step`. The entry `i` of the result is the entry `i` of the starting array plus the sum of `v n`
over the positions `n` of `L` with `g n = some i`. By induction on `L`, for all starting arrays at once: the head
`a` changes the entry `i` of the starting array by `v a` exactly when `g a = some i`, and `a` does not occur in
the tail, so it is a new term of the sum. -/
theorem foldl_add_step {ι β α : Type} [DecidableEq ι] [DecidableEq β] [AddCommMonoid α]
    (g : ι → Option β) (v : ι → α) (step : (β → α) → ι → (β → α))
    (hstep : ∀ (r : β → α) (n : ι) (i : β), step r n i = if g n = some i then r i + v n else r i) :
    ∀ (L : List ι), L.Nodup → ∀ (r : β → α) (i : β),
      (L.foldl step r) i = r i + ∑ n ∈ L.toFinset.filter (fun n => g n = some i), v n
  | [], _, r, i => by simp
  | a :: L, hL, r, i => by
    rw [List.nodup_cons] at hL
    have ha : a ∉ L.toFinset.filter (fun n => g n = some i) := fun h =>
      hL.1 (List.mem_toFinset.1 (Finset.mem_filter.1 h).1)
    rw [List.foldl_cons, foldl_add_step g v step hstep L hL.2, List.toFinset_cons, Finset.filter_insert, hstep]
    by_cases h : g a = some i
    · rw [if_pos h, if_pos h, Finset.sum_insert ha, add_assoc]
    · rw [if_neg h, if_neg h]

/-- An integer scatter with an `add` body, at an operand position `i`: the operand's element plus the sum of
the updates whose result index is `i`. The scatter is a fold over the row-major numbering of the update
positions, which are pairwise distinct, and its step adds the update to the entry at the update's result index;
the sum over the numbers is carried to the sum over the update indices along the row-major bijection. -/
theorem scatter_addi_apply {s si u : Shape} {w wi : Nat} (d : ScatterDims s si u) (x : s.Idx → BitVec w)
    (idx : IVec si wi) (upd : u.Idx → BitVec w) (i : s.Idx) :
    Host.scatter d IntOp.addi x idx upd i
      = x i + ∑ j ∈ Finset.univ.filter (fun j => d.resultIdx? j idx = some i), upd j := by
  have key := foldl_add_step (fun n : Fin u.numel => d.resultIdx? (u.rowMajor.symm n) idx)
    (fun n => upd (u.rowMajor.symm n))
    (fun r n =>
      match d.resultIdx? (u.rowMajor.symm n) idx with
      | some k => fun i' => if i' = k then IntOp.addi (r k) (upd (u.rowMajor.symm n)) else r i'
      | none => r)
    (by
      intro r n i'
      cases h : d.resultIdx? (u.rowMajor.symm n) idx with
      | none => simp
      | some k =>
        by_cases hk : i' = k
        · subst hk; simp [IntOp.addi]
        · have : ¬ some k = some i' := fun e => hk (Option.some.inj e).symm
          simp [hk, this])
    (List.finRange u.numel) (List.nodup_finRange _) x i
  rw [List.toFinset_finRange, Finset.sum_filter] at key
  rw [Finset.sum_filter,
    ← Equiv.sum_comp u.rowMajor.symm (fun j => if d.resultIdx? j idx = some i then upd j else 0)]
  exact key

/-- The number of update positions whose result index is the operand position `i`. -/
def hits {s si u : Shape} {wi : Nat} (d : ScatterDims s si u) (idx : IVec si wi) (i : s.Idx) : ℕ :=
  (Finset.univ.filter (fun j : u.Idx => d.resultIdx? j idx = some i)).card

/-- There are at most as many hits as update positions. -/
theorem hits_le {s si u : Shape} {wi : Nat} (d : ScatterDims s si u) (idx : IVec si wi) (i : s.Idx) :
    hits d idx i ≤ u.numel := by
  unfold hits
  calc (Finset.univ.filter (fun j : u.Idx => d.resultIdx? j idx = some i)).card
      ≤ (Finset.univ : Finset u.Idx).card := Finset.card_filter_le _ _
    _ = Fintype.card (Fin u.numel) := by rw [Finset.card_univ]; exact Fintype.card_congr u.rowMajor
    _ = u.numel := Fintype.card_fin _

/-- Scattering the 32-bit integer one into zeros and converting to a float gives the number of hits, when
there are fewer than `2 ^ 31` update positions: the sum of ones is the count as a 32-bit word, the count is
below `2 ^ 31`, so the word read as a signed integer is the count itself. -/
theorem int_count {s si u : Shape} {wi : Nat} (d : ScatterDims s si u) (idx : IVec si wi) (i : s.Idx)
    (hu : u.numel < 2 ^ 31) :
    FloatOps.sitofp (F := Ideal) .f32
        (Host.scatter d IntOp.addi (fun _ => (0#32 : BitVec 32)) idx (fun _ => (1#32 : BitVec 32)) i)
      = (((hits d idx i : ℕ) : ℝ) : EReal) := by
  have hlt : hits d idx i < 2 ^ 31 := lt_of_le_of_lt (hits_le d idx i) hu
  have hword : Host.scatter d IntOp.addi (fun _ => (0#32 : BitVec 32)) idx (fun _ => (1#32 : BitVec 32)) i
      = BitVec.ofNat 32 (hits d idx i) := by
    rw [scatter_addi_apply, Finset.sum_const]
    show (0#32 : BitVec 32) + (hits d idx i) • (1#32 : BitVec 32) = BitVec.ofNat 32 (hits d idx i)
    rw [BitVec.zero_add]
    have h1 : (1#32 : BitVec 32) = 1 := rfl
    rw [h1, nsmul_one, BitVec.natCast_eq_ofNat]
  have hint : (BitVec.ofNat 32 (hits d idx i)).toInt = ((hits d idx i : ℕ) : ℤ) := by
    rw [BitVec.toInt_ofNat']
    apply Int.bmod_eq_of_le <;> omega
  show (((Host.scatter d IntOp.addi (fun _ => (0#32 : BitVec 32)) idx
      (fun _ => (1#32 : BitVec 32)) i).toInt : ℝ) : EReal) = (((hits d idx i : ℕ) : ℝ) : EReal)
  rw [hword, hint, Int.cast_natCast]

/-- Scattering the extended real one into zeros with exact addition gives the number of hits: the sum of ones
over the updates that land at `i` is their number. -/
theorem float_count {s si u : Shape} {wi : Nat} (d : ScatterDims s si u) (idx : IVec si wi) (i : s.Idx) :
    Host.scatterAdd (F := Ideal) (φ := .f32) d (fun _ => (0 : EReal)) idx (fun _ => (1 : EReal)) i
      = (((hits d idx i : ℕ) : ℝ) : EReal) := by
  show (0 : EReal) + ∑ _j ∈ Finset.univ.filter (fun j : u.Idx => d.resultIdx? j idx = some i), (1 : EReal)
    = (((hits d idx i : ℕ) : ℝ) : EReal)
  rw [zero_add, Finset.sum_const, nsmul_one, EReal.coe_natCast]
  rfl

/-- Multiplying by the reciprocal of `max k 1` is dividing by `max k 1`: the divisor is at least one, so it is
not zero, and there the quotient is the product with the inverse. -/
theorem mul_inv_count (a : EReal) (k : ℕ) :
    a * Ideal.div 1 (max (((k : ℕ) : ℝ) : EReal) 1) = Ideal.div a (max (((k : ℕ) : ℝ) : EReal) 1) := by
  have hy : max (((k : ℕ) : ℝ) : EReal) 1 ≠ 0 := by
    have h1 : (1 : EReal) ≤ max (((k : ℕ) : ℝ) : EReal) 1 := le_max_right _ _
    intro e
    rw [e] at h1
    exact absurd h1 (by simp)
  exact Ideal.mul_one_div hy

end

end Cert.DegreeCount
-- ==== Proof.Bridge.lean ====
/-
  The bridge: the kernel's combined rows are the reference's.

  With the projected rows `P` (operators) and `Pm` (machines) the same in both programs, each result entry is

      kernel:     max ((P + S₁ · r₁) + S₂ · r₂) 0,      r = 1 / max (integer count of the edges arriving, 1)
      reference:  max ((P + S₁ / d₁) + S₂ / d₂) 0,      d = max (float count of the edges arriving, 1)

  with the same summed messages `S`.  The integer count converted to a float and the float count are one number,
  the number `k` of edges arriving (there are 600000 edges, far below 2³¹); `max k 1` is a real number that is not
  zero, and for such a divisor `a · (1 / d) = a / d` for EVERY extended real `a`, so the two entries agree whatever
  the summed messages are: no finiteness of the inputs is used.
-/
import proofs.«156939_j10496900072194_2_alg».proof.Proof.Stages
import proofs.«156939_j10496900072194_2_alg».proof.Proof.LibDegreeCount
import proofs.«156939_j10496900072194_2_alg».proof.Proof.CombArray2
import proofs.«156939_j10496900072194_2_alg».proof.Proof.CombArray3
import Idealize.ShloMosaic.Lib.Pipeline.Value
import Idealize.ShloMosaic.Lib.IdealHost

noncomputable section

namespace Cert.Bridge

open Idealize.ShloMosaic Cert.ReferenceIdeal Cert.ReferenceIdeal.Read Cert.Stages

/-- Scaling by the kernel's reciprocal count is dividing by the clamped number of updates that land on `n`. -/
theorem scale_eq_div {s si u : Shape} (d : ScatterDims s si u) (idx : IVec si 32) (hu : u.numel < 2 ^ 31) (a : EReal) (n : s.Idx) :
    a * recipCount d idx n = Ideal.div a (max (((DegreeCount.hits d idx n : ℕ) : ℝ) : EReal) 1) := by
  unfold recipCount
  show a * Ideal.div (Ideal.ofBits .f32 0x3F800000#32)
      (max (FloatOps.sitofp (F := Ideal) .f32 (Host.scatter d IntOp.addi (fun _ => (0#32 : BitVec 32)) idx (fun _ => (1#32 : BitVec 32)) n))
        (Ideal.ofBits .f32 0x3F800000#32)) = _
  have h1 : Ideal.ofBits .f32 0x3F800000#32 = (1 : EReal) := Ideal.ofBits_one_f32
  rw [h1, DegreeCount.int_count d idx n hu]
  exact DegreeCount.mul_inv_count a _

/-- A [100000] array laid out as a column, read at the column entry of a row (the operator-to-operator degree's
    index functions). -/
theorem column_seq (h : S100000.BroadcastsInDim Cert.KernelIdeal.S100000x1 ![0]) (y : S100000.Idx → EReal) (i : S100000x128.Idx) :
    broadcastInDim Cert.KernelIdeal.S100000x1 ![0] h y (Cert.KernelIdeal.Comb2.ccol i) = y (idx_main_v28 (idx_main_v29 i)) :=
  broadcastInDim_apply _ h y (Cert.KernelIdeal.Comb2.ccol i) (idx_main_v28 (idx_main_v29 i)) (fun a => match a with
    | ⟨0, _⟩ => by show (i 0).val = if (100000 : Nat) = 1 then 0 else (i 0).val; rw [if_neg (by decide)])
/-- The same with the machine-to-operator degree's index functions. -/
theorem column_to_op (h : S100000.BroadcastsInDim Cert.KernelIdeal.S100000x1 ![0]) (y : S100000.Idx → EReal) (i : S100000x128.Idx) :
    broadcastInDim Cert.KernelIdeal.S100000x1 ![0] h y (Cert.KernelIdeal.Comb2.ccol i) = y (idx_main_v70 (idx_main_v71 i)) :=
  broadcastInDim_apply _ h y (Cert.KernelIdeal.Comb2.ccol i) (idx_main_v70 (idx_main_v71 i)) (fun a => match a with
    | ⟨0, _⟩ => by show (i 0).val = if (100000 : Nat) = 1 then 0 else (i 0).val; rw [if_neg (by decide)])
/-- A [20000] array laid out as a column, read at the column entry of a row. -/
theorem column_to_m (h : S20000.BroadcastsInDim Cert.KernelIdeal.S20000x1 ![0]) (y : S20000.Idx → EReal) (i : S20000x128.Idx) :
    broadcastInDim Cert.KernelIdeal.S20000x1 ![0] h y (Cert.KernelIdeal.Comb3.ccol i) = y (idx_main_v51 (idx_main_v52 i)) :=
  broadcastInDim_apply _ h y (Cert.KernelIdeal.Comb3.ccol i) (idx_main_v51 (idx_main_v52 i)) (fun a => match a with
    | ⟨0, _⟩ => by show (i 0).val = if (20000 : Nat) = 1 then 0 else (i 0).val; rw [if_neg (by decide)])

/-- The reference's clamped in-degree of the operator-to-operator edges, spread over the features, at an entry: the number of edges arriving, at least one. -/
theorem deg_seq (x2 : (⟨S2x600000, .i32⟩ : BufTy).Contents (Elt Ideal)) (i : S100000x128.Idx) :
    val_main_v29 (F := Ideal) x2 i
      = max (((DegreeCount.hits scatter_S100000_S600000x1_S600000_n_0_0_1 (val_main_v24 (F := Ideal) x2) (idx_main_v28 (idx_main_v29 i)) : ℕ) : ℝ) : EReal) 1 := by
  have hz : val_main_v23 (F := Ideal) = fun _ => (0 : EReal) := funext fun j => by
    rw [val_main_v23_apply, val_main_cst_2_apply]; exact Ideal.ofBits_zero_f32
  have ho : val_main_v22 (F := Ideal) = fun _ => (1 : EReal) := funext fun j => by
    rw [val_main_v22_apply, val_main_cst_1_apply]; exact Ideal.ofBits_one_f32
  rw [val_main_v29_apply, val_main_v28_apply, val_main_v27_apply, val_main_v26_apply, val_main_cst_3_apply]
  unfold val_main_v25
  rw [hz, ho, DegreeCount.float_count]
  show max _ (Ideal.ofBits .f32 0x3F800000#32) = _
  rw [Ideal.ofBits_one_f32]

/-- The reference's clamped in-degree of the operators over the operator–machine edges, spread over the features, at an entry. -/
theorem deg_to_op (x3 : (⟨S2x600000, .i32⟩ : BufTy).Contents (Elt Ideal)) (i : S100000x128.Idx) :
    val_main_v71 (F := Ideal) x3 i
      = max (((DegreeCount.hits scatter_S100000_S600000x1_S600000_n_0_0_1 (val_main_v66 (F := Ideal) x3) (idx_main_v70 (idx_main_v71 i)) : ℕ) : ℝ) : EReal) 1 := by
  have hz : val_main_v65 (F := Ideal) = fun _ => (0 : EReal) := funext fun j => by
    rw [val_main_v65_apply, val_main_cst_14_apply]; exact Ideal.ofBits_zero_f32
  have ho : val_main_v64 (F := Ideal) = fun _ => (1 : EReal) := funext fun j => by
    rw [val_main_v64_apply, val_main_cst_13_apply]; exact Ideal.ofBits_one_f32
  rw [val_main_v71_apply, val_main_v70_apply, val_main_v69_apply, val_main_v68_apply, val_main_cst_15_apply]
  unfold val_main_v67
  rw [hz, ho, DegreeCount.float_count]
  show max _ (Ideal.ofBits .f32 0x3F800000#32) = _
  rw [Ideal.ofBits_one_f32]

/-- The reference's clamped in-degree of the machines, spread over the features, at an entry. -/
theorem deg_to_m (x3 : (⟨S2x600000, .i32⟩ : BufTy).Contents (Elt Ideal)) (i : S20000x128.Idx) :
    val_main_v52 (F := Ideal) x3 i
      = max (((DegreeCount.hits scatter_S20000_S600000x1_S600000_n_0_0_1 (val_main_v47 (F := Ideal) x3) (idx_main_v51 (idx_main_v52 i)) : ℕ) : ℝ) : EReal) 1 := by
  have hz : val_main_v46 (F := Ideal) = fun _ => (0 : EReal) := funext fun j => by
    rw [val_main_v46_apply, val_main_cst_8_apply]; exact Ideal.ofBits_zero_f32
  have ho : val_main_v45 (F := Ideal) = fun _ => (1 : EReal) := funext fun j => by
    rw [val_main_v45_apply, val_main_cst_7_apply]; exact Ideal.ofBits_one_f32
  rw [val_main_v52_apply, val_main_v51_apply, val_main_v50_apply, val_main_v49_apply, val_main_cst_9_apply]
  unfold val_main_v48
  rw [hz, ho, DegreeCount.float_count]
  show max _ (Ideal.ofBits .f32 0x3F800000#32) = _
  rw [Ideal.ofBits_one_f32]

theorem edges_lt : S600000.numel < 2 ^ 31 := by decide

/-- THE OPERATORS' RESULT: the kernel's combined rows are the reference's. -/
theorem out_op (h : S100000.BroadcastsInDim Cert.KernelIdeal.S100000x1 ![0])
    (x0 : (⟨S100000x128, .f32⟩ : BufTy).Contents (Elt Ideal)) (x1 : (⟨S20000x128, .f32⟩ : BufTy).Contents (Elt Ideal)) (x2 x3 : (⟨S2x600000, .i32⟩ : BufTy).Contents (Elt Ideal))
    (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) :
    Cert.KernelIdeal.Comb2.comb3 (val_main_v3 (F := Ideal) x0 x4 x5)
        (sumSeq (val_main_v3 (F := Ideal) x0 x4 x5) x2)
        (broadcastInDim Cert.KernelIdeal.S100000x1 ![0] h
          (recipCount scatter_S100000_S600000x1_S600000_n_0_0_1 (val_main_v24 (F := Ideal) x2)))
        (sumToOp (val_main_v7 (F := Ideal) x1 x6 x7) x3)
        (broadcastInDim Cert.KernelIdeal.S100000x1 ![0] h
          (recipCount scatter_S100000_S600000x1_S600000_n_0_0_1 (val_main_v66 (F := Ideal) x3)))
      = val_main_v75 (F := Ideal) x0 x1 x2 x3 x4 x5 x6 x7 := by
  funext i
  unfold Cert.KernelIdeal.Comb2.comb3
  rw [column_seq h (recipCount scatter_S100000_S600000x1_S600000_n_0_0_1 (val_main_v24 (F := Ideal) x2)) i,
    column_to_op h (recipCount scatter_S100000_S600000x1_S600000_n_0_0_1 (val_main_v66 (F := Ideal) x3)) i,
    scale_eq_div _ (val_main_v24 (F := Ideal) x2) edges_lt, scale_eq_div _ (val_main_v66 (F := Ideal) x3) edges_lt]
  rw [val_main_v75_apply, val_main_v74_apply, val_main_v73_apply, val_main_v30_apply, val_main_v72_apply,
    val_main_v21_eq, val_main_v63_eq, deg_seq, deg_to_op, val_main_call0_v0_apply, val_main_call0_cst_apply]
  rfl

/-- THE MACHINES' RESULT: the kernel's combined rows are the reference's. -/
theorem out_m (h : S20000.BroadcastsInDim Cert.KernelIdeal.S20000x1 ![0])
    (x0 : (⟨S100000x128, .f32⟩ : BufTy).Contents (Elt Ideal)) (x1 : (⟨S20000x128, .f32⟩ : BufTy).Contents (Elt Ideal)) (x3 : (⟨S2x600000, .i32⟩ : BufTy).Contents (Elt Ideal))
    (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) :
    Cert.KernelIdeal.Comb3.comb2 (val_main_v7 (F := Ideal) x1 x6 x7)
        (sumToM (val_main_v3 (F := Ideal) x0 x4 x5) x3)
        (broadcastInDim Cert.KernelIdeal.S20000x1 ![0] h
          (recipCount scatter_S20000_S600000x1_S600000_n_0_0_1 (val_main_v47 (F := Ideal) x3)))
      = val_main_v77 (F := Ideal) x0 x1 x3 x4 x5 x6 x7 := by
  funext i
  unfold Cert.KernelIdeal.Comb3.comb2
  rw [column_to_m h _ i, scale_eq_div _ (val_main_v47 (F := Ideal) x3) edges_lt]
  rw [val_main_v77_apply, val_main_v76_apply, val_main_v53_apply, val_main_v44_eq, deg_to_m,
    val_main_call1_v0_apply, val_main_call1_cst_apply]
  rfl

end Cert.Bridge

end
-- ==== Proof.KernelValue.lean ====
/-
  The kernel program's two results as the reference's stage functions of the launch memory.

  The last boundary valuation, read at the two result buffers: the operators' result is what the three-operand
  combine launch wrote (the two-operand launch after it does not touch it), the machines' result what the
  two-operand launch wrote.  Each combine launch found the projections as the first two launches left them and the
  summed messages and reciprocal-degree columns as the third host stretch computed them from those projections and
  the edge lists.  The projections are the reference's affine stages, and the combined rows the reference's results
  (the bridge): so each result buffer ends at the reference's stage function of the eight arguments.
-/
import proofs.«156939_j10496900072194_2_alg».proof.Proof.Gen.KernelIdeal.Frame
import proofs.«156939_j10496900072194_2_alg».proof.Proof.KernelProj
import proofs.«156939_j10496900072194_2_alg».proof.Proof.KernelHostSeq
import proofs.«156939_j10496900072194_2_alg».proof.Proof.KernelHostBip
import proofs.«156939_j10496900072194_2_alg».proof.Proof.CombArray2
import proofs.«156939_j10496900072194_2_alg».proof.Proof.CombArray3
import proofs.«156939_j10496900072194_2_alg».proof.Proof.ProjRef
import proofs.«156939_j10496900072194_2_alg».proof.Proof.Bridge

set_option maxRecDepth 16384

noncomputable section

namespace Cert.KernelIdeal.Results

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- THE OPERATORS' RESULT of the kernel program is the reference's stage function of the arguments. -/
theorem out_op : (W7 m ρ c (Proc.devRef .tc main_v72) : S100000x128.Idx → EReal)
    = Cert.ReferenceIdeal.Read.val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W7_of_ne m ρ c main_v72 (by decide)).trans ?_
  refine ((W6_arr m ρ c 5).trans (Comb2.final (V5 m ρ) c)).trans ?_
  show Comb2.comb3 (StableHlo.after hostOps2 (W4 m ρ c) (Proc.devRef .tc main_v1))
      (StableHlo.after hostOps2 (W4 m ρ c) (Proc.devRef .tc main_v17))
      (StableHlo.after hostOps2 (W4 m ρ c) (Proc.devRef .tc main_v27))
      (StableHlo.after hostOps2 (W4 m ρ c) (Proc.devRef .tc main_v61))
      (StableHlo.after hostOps2 (W4 m ρ c) (Proc.devRef .tc main_v71)) = _
  rw [HostSeq.read_v1, HostSeq.read_v17, HostSeq.read_v27, HostBip.read_v61, HostBip.read_v71,
    Entry.W4_v1, Entry.W4_v3, Entry.W4_arg2, Entry.W4_arg3, ProjRef.proj_op_eq, ProjRef.proj_m_eq]
  exact Cert.Bridge.out_op _ _ _ _ _ _ _ _ _

/-- THE MACHINES' RESULT of the kernel program is the reference's stage function of the arguments. -/
theorem out_m : (W7 m ρ c (Proc.devRef .tc main_v73) : S20000x128.Idx → EReal)
    = Cert.ReferenceIdeal.Read.val_main_v77 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine ((W7_arr m ρ c 3).trans (Comb3.final (V6 m ρ) c)).trans ?_
  show Comb3.comb2 (W6 m ρ c (Proc.devRef .tc main_v3)) (W6 m ρ c (Proc.devRef .tc main_v41)) (W6 m ρ c (Proc.devRef .tc main_v51)) = _
  rw [W6_of_ne m ρ c main_v3 (by decide), W6_of_ne m ρ c main_v41 (by decide), W6_of_ne m ρ c main_v51 (by decide)]
  show Comb3.comb2 (StableHlo.after hostOps2 (W4 m ρ c) (Proc.devRef .tc main_v3))
      (StableHlo.after hostOps2 (W4 m ρ c) (Proc.devRef .tc main_v41))
      (StableHlo.after hostOps2 (W4 m ρ c) (Proc.devRef .tc main_v51)) = _
  rw [HostBip.read_v3, HostBip.read_v41, HostBip.read_v51,
    Entry.W4_v1, Entry.W4_v3, Entry.W4_arg3, ProjRef.proj_op_eq, ProjRef.proj_m_eq]
  exact Cert.Bridge.out_m _ _ _ _ _ _ _ _

end Cert.KernelIdeal.Results

end
-- ==== Proof.lean ====
/-
  A heterogeneous graph layer — operators and machines, three edge directions — against its plain reference:
  equal as extended reals, entry by entry.

  Both programs project the operator rows and the machine rows (`x · W + b`), send projected rows along each edge
  direction (gather at one end, sum at the other), average by the in-degree clamped at one, add, and clamp at zero.
  The kernel program does the two projections and the two final combinations in four pipelined launches and keeps
  the gathers and scatter-adds on the host; it counts degrees in 32-bit integers and multiplies by a reciprocal
  where the reference counts in floats and divides.

  * The frames of the two kernel programs are the generated ones; the reference's is its generated run.
  * The idealization rewrote nothing, so there is nothing to preserve.
  * For the values: the kernel program's run is restated with every buffer named (`KernelRun`); each launch is one
    function of the arrays it finds (`ProjArray0/1`, `CombArray2/3`, over the block lemmas `ProjBlock`,
    `CombineBlock`); the host stretches are read back (`KernelProj`, `KernelHostSeq`, `KernelHostBip`) in terms
    of the stages the two programs share (`Stages`); the projections are the reference's (`ProjRef`); and
    `a · (1 / max k 1) = a / max k 1` with `k` the number of arriving edges, counted either way
    (`LibDegreeCount`, `Bridge`).  `KernelValue` puts these together: each result buffer of the kernel program ends
    at the reference's stage function of the arguments.  No finiteness of the inputs is needed.
-/
import proofs.«156939_j10496900072194_2_alg».proof.Defs
import proofs.«156939_j10496900072194_2_alg».proof.Proof.Gen.Kernel
import proofs.«156939_j10496900072194_2_alg».proof.Proof.Gen.Kernel.Skeleton
import proofs.«156939_j10496900072194_2_alg».proof.Proof.Gen.Kernel.Launch
import proofs.«156939_j10496900072194_2_alg».proof.Proof.Gen.Kernel.Points
import proofs.«156939_j10496900072194_2_alg».proof.Proof.Gen.Kernel.Frame
import proofs.«156939_j10496900072194_2_alg».proof.Proof.Gen.KernelIdeal
import proofs.«156939_j10496900072194_2_alg».proof.Proof.Gen.KernelIdeal.Skeleton
import proofs.«156939_j10496900072194_2_alg».proof.Proof.Gen.KernelIdeal.Launch
import proofs.«156939_j10496900072194_2_alg».proof.Proof.Gen.KernelIdeal.Points
import proofs.«156939_j10496900072194_2_alg».proof.Proof.Gen.KernelIdeal.Frame
import proofs.«156939_j10496900072194_2_alg».proof.Proof.Gen.ReferenceIdeal
import proofs.«156939_j10496900072194_2_alg».proof.Proof.Gen.Pre_finite_inputs
import proofs.«156939_j10496900072194_2_alg».proof.Proof.Gen.ReferenceIdeal.Run
import proofs.«156939_j10496900072194_2_alg».proof.Proof.Gen.ReferenceIdeal.Read
import proofs.«156939_j10496900072194_2_alg».proof.Proof.KernelRun
import proofs.«156939_j10496900072194_2_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel program runs and keeps its arguments: the generated frame. -/
theorem frame_k : @Cert.frame_Kernel Cert.Kernel.Gen.facts Cert.Pre_finite_inputs.Gen.facts :=
  fun m ρ _ => Cert.Kernel.Gen.frame m ρ

/-- The idealized kernel program runs and keeps its arguments: the generated frame. -/
theorem frame_ki : @Cert.frame_KernelIdeal Cert.KernelIdeal.Gen.facts Cert.Pre_finite_inputs.Gen.facts :=
  fun m ρ _ => Cert.KernelIdeal.Gen.frame m ρ

/-- The reference runs and keeps its arguments: its generated run with the two results dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2.2)
    (Cert.ReferenceIdeal.Value.run (F := Ideal) m ρ)

/-- From memories that agree on the arguments both programs end with each result at the reference's stage function
    of the arguments: the kernel program by `KernelValue`, the reference by its generated run read stage by stage. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.ReferenceIdeal.Read.val_main_v75 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.ReferenceIdeal.Read.val_main_v77 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c =>
      ⟨(h c).1.trans (Cert.KernelIdeal.Results.out_op m ρ c), (h c).2.1.trans (Cert.KernelIdeal.Results.out_m m ρ c), (h c).2.2⟩)
      (Cert.KernelIdeal.Whole.run_results (F := Ideal) m ρ)
  · refine (θ_run Cert.ReferenceIdeal.defs _ _).mono (fun r h c => ⟨(h c).1.trans ?_, ((h c).2.1.trans (Cert.ReferenceIdeal.Read.val_main_v77_eq _ _ _ _ _ _ _)).trans ?_, (h c).2.2⟩)
      (Cert.ReferenceIdeal.Value.run (F := Ideal) m' ρ')
    · obtain ⟨a0, a1, a2, a3, a4, a5, a6, a7⟩ := hagree c
      rw [Cert.ReferenceIdeal.Read.val_main_v75_eq, a0, a1, a2, a3, a4, a5, a6, a7]
    · obtain ⟨a0, a1, a2, a3, a4, a5, a6, a7⟩ := hagree c
      rw [a0, a1, a3, a4, a5, a6, a7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
